-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S64x1024x512 .f32) (main_arg1 : FVec F S64x512 .f32) (main_arg2 : FVec F S512x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S64x1024x512 : Shape := ⟨3, ![64, 1024, 512]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S64x1x512 : Shape := ⟨3, ![64, 1, 512]⟩
abbrev S1x1x512 : Shape := ⟨3, ![1, 1, 512]⟩
abbrev S1x1 : Shape := ⟨2, ![1, 1]⟩
abbrev S64x1024 : Shape := ⟨2, ![64, 1024]⟩
abbrev S16x128x512 : Shape := ⟨3, ![16, 128, 512]⟩
abbrev S16x1x512 : Shape := ⟨3, ![16, 1, 512]⟩
abbrev S16x1024 : Shape := ⟨2, ![16, 1024]⟩
abbrev S16x1 : Shape := ⟨2, ![16, 1]⟩
abbrev S2048x512 : Shape := ⟨2, ![2048, 512]⟩
abbrev S16x128 : Shape := ⟨2, ![16, 128]⟩
abbrev S16 : Shape := ⟨1, ![16]⟩
abbrev S16x128x1 : Shape := ⟨3, ![16, 128, 1]⟩
abbrev S16x1x1 : Shape := ⟨3, ![16, 1, 1]⟩
abbrev S16x512 : Shape := ⟨2, ![16, 512]⟩

abbrev nBuf : Space → Nat
  | .hbm => 22
  | .vmem => 15
  | .smem => 0
  | _ => 0

abbrev bufTy : (tb : Table) → Fin (tcTables nBuf tb) → BufTy
  | .hbm, ⟨0, _⟩ => ⟨S64x1024x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S64x512, .f32⟩
  | .hbm, ⟨9, _⟩ => ⟨S1x512, .f32⟩
  | .hbm, ⟨10, _⟩ => ⟨S64x512, .f32⟩
  | .hbm, ⟨11, _⟩ => ⟨S64x512, .f32⟩
  | .hbm, ⟨12, _⟩ => ⟨S1x512, .f32⟩
  | .hbm, ⟨13, _⟩ => ⟨S64x512, .f32⟩
  | .hbm, ⟨14, _⟩ => ⟨S64x512, .f32⟩
  | .hbm, ⟨15, _⟩ => ⟨S64x1x512, .f32⟩
  | .hbm, ⟨16, _⟩ => ⟨S1x1x512, .f32⟩
  | .hbm, ⟨17, _⟩ => ⟨S1x1, .f32⟩
  | .hbm, ⟨18, _⟩ => ⟨S512x512, .bf16⟩
  | .hbm, ⟨19, _⟩ => ⟨S64x1x512, .f32⟩
  | .hbm, ⟨20, _⟩ => ⟨S64x1024, .f32⟩
  | .hbm, ⟨21, _⟩ => ⟨S64x512, .f32⟩
  | .local _ .vmem, ⟨0, _⟩ => ⟨S16x128x512, .f32⟩
  | .local _ .vmem, ⟨1, _⟩ => ⟨S16x128x512, .f32⟩
  | .local _ .vmem, ⟨2, _⟩ => ⟨S512x512, .bf16⟩
  | .local _ .vmem, ⟨3, _⟩ => ⟨S16x1x512, .f32⟩
  | .local _ .vmem, ⟨4, _⟩ => ⟨S16x1x512, .f32⟩
  | .local _ .vmem, ⟨5, _⟩ => ⟨S1x1x512, .f32⟩
  | .local _ .vmem, ⟨6, _⟩ => ⟨S1x1, .f32⟩
  | .local _ .vmem, ⟨7, _⟩ => ⟨S16x1x512, .f32⟩
  | .local _ .vmem, ⟨8, _⟩ => ⟨S16x1x512, .f32⟩
  | .local _ .vmem, ⟨9, _⟩ => ⟨S16x1024, .f32⟩
  | .local _ .vmem, ⟨10, _⟩ => ⟨S16x1024, .f32⟩
  | .local _ .vmem, ⟨11, _⟩ => ⟨S16x1, .f32⟩
  | .local _ .vmem, ⟨12, _⟩ => ⟨S16x1, .f32⟩
  | .local _ .vmem, ⟨13, _⟩ => ⟨S16x1x512, .f32⟩
  | .local _ .vmem, ⟨14, _⟩ => ⟨S16x1024, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c128_i32 : BitVec 32 := 128#32
  let v38 : BitVec 32 := Scalar.muli arg1 c128_i32
  v38
def k0_off1 (i : grid0.Coords) : Fin 2 → Nat :=
  let c0_24 : Index := 0#32
  let arg1 : BitVec 32 := BitVec.ofNat 32 (i 1).val
  let c128_i32 : BitVec 32 := 128#32
  let v38 : BitVec 32 := Scalar.muli arg1 c128_i32
  let v39 : BitVec 32 := v38
  let v46 : Index := Scalar.indexCast v39
  ![0, v46.toNat]
def k0_cond2 (i : grid0.Coords) : BitVec 1 :=
  let arg1 : BitVec 32 := BitVec.ofNat 32 (i 1).val
  let c7_i32 : BitVec 32 := 7#32
  let v69 : BitVec 1 := Scalar.cmpi .eq arg1 c7_i32
  let v70 : BitVec 32 := Scalar.extui v69
  let c0_i32_36 : BitVec 32 := 0#32
  let v71 : BitVec 1 := Scalar.cmpi .ne v70 c0_i32_36
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  shapeCasts_S64x512_S64x1x512 : S64x512.ShapeCasts S64x1x512
  shapeCasts_S512x1_S1x1x512 : S512x1.ShapeCasts S1x1x512
  shapeCasts_S1_S1x1 : S1.ShapeCasts S1x1
  bitsLt_bf16_f32 : FTy.bits .bf16 < FTy.bits .f32
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x1x512_S16x1x512_0_0_0 : ∀ a, (![0, 0, 0] : Fin 3 → Nat) a + S16x1x512.size a ≤ S16x1x512.size a
  h_S16x1x512 : 0 < S16x1x512.numel
  shapeCasts_S16x1x512_S16x1x512 : S16x1x512.ShapeCasts S16x1x512
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x128x512_S16x128x512_0_0_0 : ∀ a, (![0, 0, 0] : Fin 3 → Nat) a + S16x128x512.size a ≤ S16x128x512.size a
  h_S16x128x512 : 0 < S16x128x512.numel
  shapeCasts_S16x128x512_S2048x512 : S16x128x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S16x128x512 : S2048x512.ShapeCasts S16x128x512
  broadcasts_S16x1x512_S16x128x512 : S16x1x512.Broadcasts S16x128x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  broadcasts_S1x1x512_S16x128x512 : S1x1x512.Broadcasts S16x128x512
  reduces_S16x128x512_S16x128 : S16x128x512.Reduces [2] S16x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16x128 : S1x1.Broadcasts S16x128
  reduces_S16x128_S16 : S16x128.Reduces [1] S16
  shapeCasts_S16_S16x1 : S16.ShapeCasts S16x1
  broadcasts_S16x1_S16x128 : S16x1.Broadcasts S16x128
  broadcasts_S16x1_S16x1024 : S16x1.Broadcasts S16x1024
  h_S16x128 : 0 < S16x128.numel
  shapeCasts_S16x128_S16x128 : S16x128.ShapeCasts S16x128
  shapeCasts_S16x128_S16x128x1 : S16x128.ShapeCasts S16x128x1
  shapeCasts_S16x1_S16x1x1 : S16x1.ShapeCasts S16x1x1
  broadcasts_S16x1x1_S16x1x512 : S16x1x1.Broadcasts S16x1x512
  broadcasts_S16x128x1_S16x128x512 : S16x128x1.Broadcasts S16x128x512
  reduces_S16x128x512_S16x512 : S16x128x512.Reduces [1] S16x512
  shapeCasts_S16x512_S16x1x512 : S16x512.ShapeCasts S16x1x512
  shapeCasts_S64x1x512_S64x512 : S64x1x512.ShapeCasts S64x512
  dot_S64x512_S512x512_S64x512_1_0_0_1_n_n_wf : DotDims.WF S64x512 S512x512 S64x512 [1] [0] [0] [1] [] []
  dot_S2048x512_S512x512_S2048x512_1_0_0_1_n_n_wf : DotDims.WF S2048x512 S512x512 S2048x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S16x128.size a ≤ S16x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x512.size a ≤ S64x1024x512.size a
  hwx0_0 : ∀ i : grid0.Coords, EltTy.bits .f32 = 32 ∨ (Rect.block (s := S64x1024x512) S16x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x512.size a ≤ S64x1x512.size a
  hwx0_2 : ∀ i : grid0.Coords, EltTy.bits .f32 = 32 ∨ (Rect.block (s := S64x1x512) S16x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S1x1x512.size a
  hwx0_3 : ∀ i : grid0.Coords, EltTy.bits .f32 = 32 ∨ (Rect.block (s := S1x1x512) S1x1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1x512.size a ≤ S64x1x512.size a
  hwx0_5 : ∀ i : grid0.Coords, EltTy.bits .f32 = 32 ∨ (Rect.block (s := S64x1x512) S16x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x1024.size a ≤ S64x1024.size a
  hwx0_6 : ∀ i : grid0.Coords, EltTy.bits .f32 = 32 ∨ (Rect.block (s := S64x1024) S16x1024.size (cc0_transform_6 i) (hinb0_6 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S16x1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S16x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x1024x512 : Shape := ⟨3, ![64, 1024, 512]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1x512 : Shape := ⟨3, ![1, 1, 512]⟩
abbrev S1x512 : Shape := ⟨2, ![1, 512]⟩
abbrev S64x1x512 : Shape := ⟨3, ![64, 1, 512]⟩
abbrev S64x1024x1 : Shape := ⟨3, ![64, 1024, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩
abbrev S64x1024 : Shape := ⟨2, ![64, 1024]⟩

abbrev nBuf : Space → Nat
  | .hbm => 43
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S64x1024x512, .f32⟩
  | .hbm, ⟨9, _⟩ => ⟨S1x1x512, .f32⟩
  | .hbm, ⟨10, _⟩ => ⟨S64x1024x512, .f32⟩
  | .hbm, ⟨11, _⟩ => ⟨S64x1024x512, .f32⟩
  | .hbm, ⟨12, _⟩ => ⟨S64x512, .f32⟩
  | .hbm, ⟨13, _⟩ => ⟨S1x512, .f32⟩
  | .hbm, ⟨14, _⟩ => ⟨S64x512, .f32⟩
  | .hbm, ⟨15, _⟩ => ⟨S64x512, .f32⟩
  | .hbm, ⟨16, _⟩ => ⟨S64x1x512, .f32⟩
  | .hbm, ⟨17, _⟩ => ⟨S64x1024x512, .f32⟩
  | .hbm, ⟨18, _⟩ => ⟨S64x1024x512, .f32⟩
  | .hbm, ⟨19, _⟩ => ⟨S64x1024x512, .f32⟩
  | .hbm, ⟨20, _⟩ => ⟨S64x1024x1, .f32⟩
  | .hbm, ⟨21, _⟩ => ⟨S1x1x1, .f32⟩
  | .hbm, ⟨22, _⟩ => ⟨S64x1024x1, .f32⟩
  | .hbm, ⟨23, _⟩ => ⟨S64x1024x1, .f32⟩
  | .hbm, ⟨24, _⟩ => ⟨S_, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1x1, .f32⟩
  | .hbm, ⟨30, _⟩ => ⟨S64x1024x1, .f32⟩
  | .hbm, ⟨31, _⟩ => ⟨S64x1024x1, .f32⟩
  | .hbm, ⟨32, _⟩ => ⟨S64x1024x1, .f32⟩
  | .hbm, ⟨33, _⟩ => ⟨S_, .f32⟩
  | .hbm, ⟨34, _⟩ => ⟨S64x1, .f32⟩
  | .hbm, ⟨35, _⟩ => ⟨S64x1x1, .f32⟩
  | .hbm, ⟨36, _⟩ => ⟨S64x1024x1, .f32⟩
  | .hbm, ⟨37, _⟩ => ⟨S64x1024x1, .f32⟩
  | .hbm, ⟨38, _⟩ => ⟨S64x1024x512, .f32⟩
  | .hbm, ⟨39, _⟩ => ⟨S64x1024x512, .f32⟩
  | .hbm, ⟨40, _⟩ => ⟨S_, .f32⟩
  | .hbm, ⟨41, _⟩ => ⟨S64x512, .f32⟩
  | .hbm, ⟨42, _⟩ => ⟨S64x1024, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x1x512_0_2 : S64x512.BroadcastsInDim S64x1x512 (![0, 2] : Fin 2 → Fin S64x1x512.rank)
  bcast_S64x1x512_S64x1024x512_0_1_2 : S64x1x512.BroadcastsInDim S64x1024x512 (![0, 1, 2] : Fin 3 → Fin S64x1024x512.rank)
  bcast_S1_S1x1x1_2 : S1.BroadcastsInDim S1x1x1 (![2] : Fin 1 → Fin S1x1x1.rank)
  bcast_S1x1x1_S64x1024x1_0_1_2 : S1x1x1.BroadcastsInDim S64x1024x1 (![0, 1, 2] : Fin 3 → Fin S64x1024x1.rank)
  reducesTo_S64x1024x1_S64x1_d1 : S64x1024x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x1024x1_0_1_2 : S64x1x1.BroadcastsInDim S64x1024x1 (![0, 1, 2] : Fin 3 → Fin S64x1024x1.rank)
  bcast_S64x1024x1_S64x1024x512_0_1_2 : S64x1024x1.BroadcastsInDim S64x1024x512 (![0, 1, 2] : Fin 3 → Fin S64x1024x512.rank)
  reducesTo_S64x1024x512_S64x512_d1 : S64x1024x512.ReducesTo [1] S64x512
  shapeCasts_S64x1024x1_S64x1024 : S64x1024x1.ShapeCasts S64x1024
  dot_S64x1024x512_S512x512_S64x1024x512_2_0_01_1_n_n_wf : DotDims.WF S64x1024x512 S512x512 S64x1024x512 [2] [0] [0, 1] [1] [] []
  dot_S64x512_S512x512_S64x512_1_0_0_1_n_n_wf : DotDims.WF S64x512 S512x512 S64x512 [1] [0] [0] [1] [] []
  dot_S64x1024x512_S512x1_S64x1024x1_2_0_01_1_n_n_wf : DotDims.WF S64x1024x512 S512x1 S64x1024x1 [2] [0] [0, 1] [1] [] []

variable [Facts₀]

def dot_S64x1024x512_S512x512_S64x1024x512_2_0_01_1_n_n : DotDims S64x1024x512 S512x512 S64x1024x512 where
  lhsContracting := [2]
  rhsContracting := [0]
  lhsNonContracting := [0, 1]
  rhsNonContracting := [1]
  lhsBatch := []
  rhsBatch := []
  wf := dot_S64x1024x512_S512x512_S64x1024x512_2_0_01_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x1024x512_S512x1_S64x1024x1_2_0_01_1_n_n : DotDims S64x1024x512 S512x1 S64x1024x1 where
  lhsContracting := [2]
  rhsContracting := [0]
  lhsNonContracting := [0, 1]
  rhsNonContracting := [1]
  lhsBatch := []
  rhsBatch := []
  wf := dot_S64x1024x512_S512x1_S64x1024x1_2_0_01_1_n_n_wf

class Facts : Prop extends Facts₀ where

variable [Facts]
-- ==== Proof.Spec.lean ====
/-
  Additive attention over the extended reals, written once as a function of the eight argument arrays.

  For a batch row b and a time step T the logit is
      L(b,T) = Σ_u tanh( (Σ_f enc(b,T,f)·W1(f,u) + b1(u)) + (Σ_d dec(b,d)·W2(d,u) + b2(u)) ) · V(u,0) + bV(0),
  the attention weight is the softmax of L(b,·) over the 1024 time steps, and the context vector is the weighted sum
  of the encoder rows. When every argument entry is a real number every logit is a real number, and the weights and
  the context are stated over the reals:
      w(b,T) = exp L(b,T) / Σ_T' exp L(b,T'),      ctx(b,f) = Σ_T w(b,T)·enc(b,T,f).
  Both programs are compared with these two arrays.
-/
import Idealize.ShloMosaic.PureOps.Ideal
import Idealize.ShloMosaic.Lib.ValueIdx

noncomputable section

open scoped BigOperators

namespace Cert.Attention

open Idealize.ShloMosaic Idealize.ShloMosaic.ValueIdx

/-- An extended real that is a real number. -/
def IsReal (x : EReal) : Prop := ∃ r : ℝ, x = (r : EReal)

theorem IsReal.coe_toReal {x : EReal} (h : IsReal x) : ((x.toReal : ℝ) : EReal) = x := by
  obtain ⟨r, rfl⟩ := h; rfl

theorem isReal_coe (r : ℝ) : IsReal (r : EReal) := ⟨r, rfl⟩

/-- The eight argument arrays: encoder features [64,1024,512], decoder state [64,512], the two weight matrices
    [512,512] with their biases [512], the scoring vector [512,1] and its bias [1]. -/
structure Args where
  enc : (⟨3, ![64, 1024, 512]⟩ : Shape).Idx → EReal
  dec : (⟨2, ![64, 512]⟩ : Shape).Idx → EReal
  W1 : (⟨2, ![512, 512]⟩ : Shape).Idx → EReal
  b1 : (⟨1, ![512]⟩ : Shape).Idx → EReal
  W2 : (⟨2, ![512, 512]⟩ : Shape).Idx → EReal
  b2 : (⟨1, ![512]⟩ : Shape).Idx → EReal
  V : (⟨2, ![512, 1]⟩ : Shape).Idx → EReal
  bV : (⟨1, ![1]⟩ : Shape).Idx → EReal

/-- Every entry of every argument is a real number. -/
structure Args.Finite (A : Args) : Prop where
  enc : ∀ i, IsReal (A.enc i)
  dec : ∀ i, IsReal (A.dec i)
  W1 : ∀ i, IsReal (A.W1 i)
  b1 : ∀ i, IsReal (A.b1 i)
  W2 : ∀ i, IsReal (A.W2 i)
  b2 : ∀ i, IsReal (A.b2 i)
  V : ∀ i, IsReal (A.V i)
  bV : ∀ i, IsReal (A.bV i)

variable (A : Args)

/-- The encoder projection Σ_f enc(b,T,f)·W1(f,u). -/
def projEnc (b : Fin 64) (T : Fin 1024) (u : Fin 512) : EReal :=
  ∑ f : Fin 512, A.enc (ix3 b T f) * A.W1 (ix2 f u)

/-- The decoder projection with its bias, Σ_d dec(b,d)·W2(d,u) + b2(u). -/
def projDec (b : Fin 64) (u : Fin 512) : EReal :=
  (∑ d : Fin 512, A.dec (ix2 b d) * A.W2 (ix2 d u)) + A.b2 (ix1 u)

/-- The logit of time step T in batch row b. -/
def logit (b : Fin 64) (T : Fin 1024) : EReal :=
  (∑ u : Fin 512, Ideal.tanh ((projEnc A b T u + A.b1 (ix1 u)) + projDec A b u) * A.V (ix2 u (0 : Fin 1)))
    + A.bV (ix1 (0 : Fin 1))

/-- The logit as a real number (its value when the arguments are finite). -/
def logitR (b : Fin 64) (T : Fin 1024) : ℝ := (logit A b T).toReal

/-- An encoder entry as a real number. -/
def encR (b : Fin 64) (T : Fin 1024) (f : Fin 512) : ℝ := (A.enc (ix3 b T f)).toReal

/-- The softmax weight of time step T in row b. -/
def weight (b : Fin 64) (T : Fin 1024) : ℝ :=
  Real.exp (logitR A b T) / ∑ T' : Fin 1024, Real.exp (logitR A b T')

/-- The attention weights [64,1024]. -/
def attn : (⟨2, ![64, 1024]⟩ : Shape).Idx → EReal := fun i => ((weight A (i 0) (i 1) : ℝ) : EReal)

/-- The context vectors [64,512]: the encoder rows averaged with the attention weights. -/
def context : (⟨2, ![64, 512]⟩ : Shape).Idx → EReal := fun i =>
  ((∑ T : Fin 1024, weight A (i 0) T * encR A (i 0) T (i 1) : ℝ) : EReal)

theorem attn_apply (b : Fin 64) (T : Fin 1024) : attn A (ix2 b T) = ((weight A b T : ℝ) : EReal) := rfl

theorem context_apply (b : Fin 64) (f : Fin 512) :
    context A (ix2 b f) = ((∑ T : Fin 1024, weight A b T * encR A b T f : ℝ) : EReal) := rfl

end Cert.Attention

end
-- ==== Proof.Finite.lean ====
/-
  The arguments are finite. The precondition evaluates, for each of the eight argument arrays x, the conjunction over all
  indices i of the comparison |x i| < +∞, and the conjunction of the eight results; it states that the outcome is true.
  Over the extended reals |x| = max x (-x), and max x (-x) < ⊤ excludes both x = ⊤ and x = ⊥, so x is a real number.
  Hence every entry of every argument array is a real number, which is `Args.Finite` of the arrays read as `Args`.
-/
import proofs.«177093_j35699768164501_2_alg».proof.Proof.Spec
import proofs.«177093_j35699768164501_2_alg».proof.Defs
import proofs.«177093_j35699768164501_2_alg».proof.Proof.Gen.Pre_finite_inputs
import Idealize.ShloMosaic.Lib.ReduceAll

noncomputable section

namespace Cert.Attention.Finite

open Idealize.ShloMosaic Idealize.ShloMosaic.ValueIdx Idealize.SL.Sem
open Cert.Pre_finite_inputs (S_ S64x1024x512 S64x512 S512x512 S512 S512x1 S1)

/-- The rank-0 shape has exactly one index. -/
instance : Subsingleton S_.Idx := ⟨fun a b => funext fun d => d.elim0⟩

/-- An extended real whose absolute value lies below +∞ is a real number. -/
theorem isReal_of_abs_lt_top (x : EReal) (h : max x (-x) < ⊤) : IsReal x := by
  induction x using EReal.rec with
  | bot => simp at h
  | coe r => exact ⟨r, rfl⟩
  | top => simp at h

/-- The word 0x7F800000 denotes +∞. -/
theorem inf_word : Ideal.ofBits .f32 0x7F800000#32 = (⊤ : EReal) := by
  simp [Ideal.ofBits, Ideal.ieee]

/-- The comparison |x| < +∞ coming out true makes x a real number. -/
theorem isReal_of_cmp (x : EReal)
    (h : Ideal.cmp .olt (max x (-x)) (Ideal.ofBits .f32 0x7F800000#32) = 1#1) : IsReal x := by
  rw [inf_word] at h
  apply isReal_of_abs_lt_top
  unfold Ideal.cmp at h
  by_contra hn
  simp [hn] at h

/-- One argument array of any shape: when the conjunction over all indices of |x i| < +∞ is true, every entry of x is a
    real number. -/
theorem real_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
        (cmpf .olt (Host.absf x) (broadcastInDim s ![] hb (constant (F := Ideal) S_ .f32 0x7F800000#32)))
        (constantI S_ 1 1#1) hr hu ix0 = 1#1) (i : s.Idx) : IsReal (x i) :=
  isReal_of_cmp (x i) (Host.reduce_andi_all _ _ hr hu ix0 e i)

/-- The eight argument arrays a device holds, read as the arguments of the specification: encoder features, decoder state,
    the two weight matrices each followed by its bias, the scoring vector and its bias. -/
def argsOf (m : (ℓ : Loc Cert.KernelIdeal.nD Cert.KernelIdeal.τ Cert.KernelIdeal.sig) → Buf (Elt Ideal) ℓ)
    (c : Dev Cert.KernelIdeal.nD) : Cert.Attention.Args :=
  ⟨m ((c.tc : Thread Cert.KernelIdeal.nD Cert.KernelIdeal.τ).loc Cert.KernelIdeal.main_arg0),
   m ((c.tc : Thread Cert.KernelIdeal.nD Cert.KernelIdeal.τ).loc Cert.KernelIdeal.main_arg1),
   m ((c.tc : Thread Cert.KernelIdeal.nD Cert.KernelIdeal.τ).loc Cert.KernelIdeal.main_arg2),
   m ((c.tc : Thread Cert.KernelIdeal.nD Cert.KernelIdeal.τ).loc Cert.KernelIdeal.main_arg3),
   m ((c.tc : Thread Cert.KernelIdeal.nD Cert.KernelIdeal.τ).loc Cert.KernelIdeal.main_arg4),
   m ((c.tc : Thread Cert.KernelIdeal.nD Cert.KernelIdeal.τ).loc Cert.KernelIdeal.main_arg5),
   m ((c.tc : Thread Cert.KernelIdeal.nD Cert.KernelIdeal.τ).loc Cert.KernelIdeal.main_arg6),
   m ((c.tc : Thread Cert.KernelIdeal.nD Cert.KernelIdeal.τ).loc Cert.KernelIdeal.main_arg7)⟩

/-- Under the precondition every entry of every argument array, on every device, is a real number: the outcome is the
    conjunction of eight bits, each the conjunction over one array of |x i| < +∞. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (argsOf m c).Finite := by
  have e := congrFun (h c) ix0
  dsimp only [Cert.Pre_finite_inputs.fn, Cert.Pre_finite_inputs.fn_part1, Cert.Pre_finite_inputs.fn_part2] at e
  -- a conjunction of two bits that is true has both bits true
  have and1 : ∀ (x y : IVec S_ 1), andi x y ix0 = 1#1 → x ix0 = 1#1 ∧ y ix0 = 1#1 :=
    fun x y h => IntOp.andi_eq_one.1 h
  obtain ⟨e, e7⟩ := and1 _ _ e
  obtain ⟨e, e6⟩ := and1 _ _ e
  obtain ⟨e, e5⟩ := and1 _ _ e
  obtain ⟨e, e4⟩ := and1 _ _ e
  obtain ⟨e, e3⟩ := and1 _ _ e
  obtain ⟨e, e2⟩ := and1 _ _ e
  obtain ⟨e0, e1⟩ := and1 _ _ e
  exact ⟨real_of_all _ _ _ _ e0, real_of_all _ _ _ _ e1, real_of_all _ _ _ _ e2, real_of_all _ _ _ _ e3,
    real_of_all _ _ _ _ e4, real_of_all _ _ _ _ e5, real_of_all _ _ _ _ e6, real_of_all _ _ _ _ e7⟩

end Cert.Attention.Finite

end
-- ==== Proof.Reference.lean ====
/-
  The reference program is additive attention.

  Stage by stage, its StableHLO operations are read at one index: the two projections with their biases, the
  hyperbolic tangent, the scoring product with its bias (the logit), the row maximum, the shifted exponentials, their
  row sum, the quotient (the attention weight) and the weighted sum of the encoder rows (the context).

  When every argument entry is a real number, every logit is a real number, so the row maximum mu is a real number
  too, and the shift by it leaves the softmax unchanged:
      exp (l_T - mu) / sum_T' exp (l_T' - mu) = exp l_T / sum_T' exp l_T'.
  Hence the two results of the reference are the attention weights and the context vectors of the specification.
-/
import proofs.«177093_j35699768164501_2_alg».proof.Proof.Spec
import proofs.«177093_j35699768164501_2_alg».proof.Proof.Gen.ReferenceIdeal.Read

noncomputable section

open scoped BigOperators

namespace Cert.Attention.Reference

open Idealize.ShloMosaic Idealize.ShloMosaic.ValueIdx Cert.ReferenceIdeal Cert.ReferenceIdeal.Gen Cert.ReferenceIdeal.Read Cert.Attention

/-! ## Real numbers among the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.tanh {x : EReal} (hx : IsReal x) : IsReal (Ideal.tanh x) := by
  obtain ⟨a, rfl⟩ := hx; exact ⟨Real.tanh a, rfl⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact IsReal.add (h a (Finset.mem_insert_self a s)) (ih fun i hi => h i (Finset.mem_insert_of_mem hi))

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of minus infinity denotes the least extended real. -/
theorem ofBits_neg_inf : Ideal.ofBits .f32 0xFF800000#32 = ⊥ := by
  simp [Ideal.ofBits, Ideal.ieee]

/-- The maximum of a nonempty finite family of reals, folded from the least element, is a real number. -/
theorem isReal_fold_max {ι : Type*} (s : Finset ι) (hs : s.Nonempty) (f : ι → EReal) (h : ∀ i, IsReal (f i)) :
    IsReal (s.fold max ⊥ f) := by
  classical
  induction hs using Finset.Nonempty.cons_induction with
  | singleton a => rw [Finset.fold_singleton, max_bot_right]; exact h a
  | cons a s ha hs ih =>
    rw [Finset.fold_cons]
    rcases max_choice (f a) (s.fold max ⊥ f) with e | e <;> rw [e]
    · exact h a
    · exact ih

/-! ## The composed index functions of the layout operations, by coordinates -/

theorem lidx_v0 (b : Fin 64) (T : Fin 1024) (u k : Fin 512) : lidx_main_v0 (ix3 b T u) k = ix3 b T k := by
  funext a; match a with | ⟨0, _⟩ => rfl | ⟨1, _⟩ => rfl | ⟨2, _⟩ => rfl

theorem ridx_v0 (b : Fin 64) (T : Fin 1024) (u k : Fin 512) : ridx_main_v0 (ix3 b T u) k = ix2 k u := by
  funext a; match a with | ⟨0, _⟩ => rfl | ⟨1, _⟩ => rfl

theorem idx_v1_v2 (b : Fin 64) (T : Fin 1024) (u : Fin 512) : idx_main_v1 (idx_main_v2 (ix3 b T u)) = ix1 u := by
  funext a; match a with | ⟨0, _⟩ => rfl

theorem idx_v8_v9 (b : Fin 64) (T : Fin 1024) (u : Fin 512) : idx_main_v8 (idx_main_v9 (ix3 b T u)) = ix2 b u := by
  funext a; match a with | ⟨0, _⟩ => rfl | ⟨1, _⟩ => rfl

theorem lidx_v4 (b : Fin 64) (u k : Fin 512) : lidx_main_v4 (ix2 b u) k = ix2 b k := by
  funext a; match a with | ⟨0, _⟩ => rfl | ⟨1, _⟩ => rfl

theorem ridx_v4 (b : Fin 64) (u k : Fin 512) : ridx_main_v4 (ix2 b u) k = ix2 k u := by
  funext a; match a with | ⟨0, _⟩ => rfl | ⟨1, _⟩ => rfl

theorem idx_v5_v6 (b : Fin 64) (u : Fin 512) : idx_main_v5 (idx_main_v6 (ix2 b u)) = ix1 u := by
  funext a; match a with | ⟨0, _⟩ => rfl

theorem lidx_v12 (b : Fin 64) (T : Fin 1024) (c : Fin 1) (k : Fin 512) : lidx_main_v12 (ix3 b T c) k = ix3 b T k := by
  funext a; match a with | ⟨0, _⟩ => rfl | ⟨1, _⟩ => rfl | ⟨2, _⟩ => rfl

theorem ridx_v12 (b : Fin 64) (T : Fin 1024) (c : Fin 1) (k : Fin 512) : ridx_main_v12 (ix3 b T c) k = ix2 k c := by
  funext a; match a with | ⟨0, _⟩ => rfl | ⟨1, _⟩ => rfl

theorem idx_v13_v14 (i : S64x1024x1.Idx) : idx_main_v13 (idx_main_v14 i) = ix1 (0 : Fin 1) := by
  funext a; match a with | ⟨0, _⟩ => rfl

variable (A : Args)

/-! ## The logit -/

/-- The argument of the hyperbolic tangent at (b, T, u): the two projections with their biases, in the reference's
    own grouping. -/
theorem stage10 (b : Fin 64) (T : Fin 1024) (u : Fin 512) :
    val_main_v10 (F := Ideal) A.enc A.dec A.W1 A.b1 A.W2 A.b2 (ix3 b T u)
      = (projEnc A b T u + A.b1 (ix1 u)) + projDec A b u := by
  rw [val_main_v10_apply, val_main_v3_apply, val_main_v0_apply, val_main_v2_apply, val_main_v1_apply,
    val_main_v9_apply, val_main_v8_apply, val_main_v7_apply, val_main_v4_apply, val_main_v6_apply, val_main_v5_apply]
  simp only [Ideal.addf_def, lidx_v0, ridx_v0, idx_v1_v2, idx_v8_v9, lidx_v4, ridx_v4, idx_v5_v6]
  rfl

/-- The scoring stage at (b, T, 0) is the logit. -/
theorem stage15 (b : Fin 64) (T : Fin 1024) (c : Fin 1) :
    val_main_v15 (F := Ideal) A.enc A.dec A.W1 A.b1 A.W2 A.b2 A.V A.bV (ix3 b T c) = logit A b T := by
  obtain rfl : c = 0 := Subsingleton.elim _ _
  rw [val_main_v15_apply, val_main_v12_apply, val_main_v14_apply, val_main_v13_apply]
  simp only [lidx_v12, ridx_v12, idx_v13_v14, val_main_v11_apply, stage10, Ideal.hostUnary_tanh_def, Ideal.addf_def]
  rfl

/-- With real arguments every logit is a real number. -/
theorem isReal_logit (hA : A.Finite) (b : Fin 64) (T : Fin 1024) : IsReal (logit A b T) := by
  unfold logit projEnc projDec
  refine IsReal.add (IsReal.sum _ _ fun u _ => IsReal.mul (IsReal.tanh ?_) (hA.V _)) (hA.bV _)
  exact IsReal.add (IsReal.add (IsReal.sum _ _ fun f _ => IsReal.mul (hA.enc _) (hA.W1 _)) (hA.b1 _))
    (IsReal.add (IsReal.sum _ _ fun d _ => IsReal.mul (hA.dec _) (hA.W2 _)) (hA.b2 _))

theorem logit_eq (hA : A.Finite) (b : Fin 64) (T : Fin 1024) : logit A b T = ((logitR A b T : ℝ) : EReal) :=
  ((isReal_logit A hA b T).coe_toReal).symm

/-! ## The row maximum is a real number -/

theorem idx_v19_v20 (b : Fin 64) (T : Fin 1024) (c : Fin 1) :
    idx_main_v19 (idx_main_v20 (ix3 b T c)) = ix2 b (0 : Fin 1) := by
  funext a; match a with | ⟨0, _⟩ => rfl | ⟨1, _⟩ => rfl

/-- The maximum stage (the row maximum of the logits, then its maximum with the least element) is a real number when
    the arguments are: its value is never needed. -/
theorem isReal_stage18 (hA : A.Finite) (j : S64x1.Idx) :
    IsReal (val_main_v18 (F := Ideal) A.enc A.dec A.W1 A.b1 A.W2 A.b2 A.V A.bV j) := by
  have hx : ∀ i, IsReal (val_main_v15 (F := Ideal) A.enc A.dec A.W1 A.b1 A.W2 A.b2 A.V A.bV i) := fun i => by
    obtain ⟨b, T, c, rfl⟩ : ∃ (b : Fin 64) (T : Fin 1024) (c : Fin 1), i = ix3 b T c := ⟨i 0, i 1, i 2, eq_ix3 i⟩
    rw [stage15]; exact isReal_logit A hA b T
  rw [val_main_v18_apply, val_main_v17_apply, val_main_cst_0_apply]
  unfold val_main_v16
  generalize val_main_v15 (F := Ideal) A.enc A.dec A.W1 A.b1 A.W2 A.b2 A.V A.bV = x at hx ⊢
  rw [Host.reduce_eq_fold_single (α := Ideal .f32) (FloatOps.maximumf (F := Ideal) (φ := .f32)) x
    (val_main_cst (F := Ideal)) reducesTo_S64x1024x1_S64x1_d1 (by decide) h_S_ j, val_main_cst_apply]
  show IsReal (max (Ideal.ofBits .f32 0xFF800000#32) (Finset.univ.fold max (Ideal.ofBits .f32 0xFF800000#32) _))
  rw [ofBits_neg_inf, max_bot_left]
  exact isReal_fold_max _ ⟨⟨0, by decide⟩, Finset.mem_univ _⟩ _ fun k => hx _

/-- The shift the reference subtracts from the logits of row b, as a real number. -/
def shift (b : Fin 64) : ℝ :=
  (val_main_v18 (F := Ideal) A.enc A.dec A.W1 A.b1 A.W2 A.b2 A.V A.bV (ix2 b (0 : Fin 1))).toReal

theorem stage18_eq (hA : A.Finite) (b : Fin 64) :
    val_main_v18 (F := Ideal) A.enc A.dec A.W1 A.b1 A.W2 A.b2 A.V A.bV (ix2 b (0 : Fin 1)) = ((shift A b : ℝ) : EReal) :=
  ((isReal_stage18 A hA _).coe_toReal).symm

/-! ## The softmax -/

/-- A shift of every logit by the same real number leaves the softmax unchanged. -/
theorem softmax_shift {ι : Type*} [Fintype ι] (l : ι → ℝ) (m : ℝ) (t : ι) :
    Real.exp (l t - m) * (1 / ∑ t', Real.exp (l t' - m)) = Real.exp (l t) / ∑ t', Real.exp (l t') := by
  have hm : Real.exp m ≠ 0 := (Real.exp_pos m).ne'
  simp only [Real.exp_sub]
  rw [← Finset.sum_div, mul_one_div, div_div_div_cancel_right₀ hm]

/-- The shifted exponential at (b, T, 0). -/
theorem stage22 (hA : A.Finite) (b : Fin 64) (T : Fin 1024) (c : Fin 1) :
    val_main_v22 (F := Ideal) A.enc A.dec A.W1 A.b1 A.W2 A.b2 A.V A.bV (ix3 b T c)
      = ((Real.exp (logitR A b T - shift A b) : ℝ) : EReal) := by
  rw [val_main_v22_apply, val_main_v21_apply, val_main_v20_apply, val_main_v19_apply, idx_v19_v20, stage15,
    stage18_eq A hA, logit_eq A hA]
  simp only [Ideal.subf_def, Ideal.hostUnary_exp_def]
  rw [← EReal.coe_sub, Ideal.exp_coe]

theorem idx_v23 (b : Fin 64) (c : Fin 1) (k : Fin 1024) : idx_main_v23 (ix2 b c) k = ix3 b k c := by
  funext a; match a with | ⟨0, _⟩ => rfl | ⟨1, _⟩ => rfl | ⟨2, _⟩ => rfl

/-- The row sum of the shifted exponentials. -/
theorem stage23 (hA : A.Finite) (b : Fin 64) (c : Fin 1) :
    val_main_v23 (F := Ideal) A.enc A.dec A.W1 A.b1 A.W2 A.b2 A.V A.bV (ix2 b c)
      = ((∑ T : Fin 1024, Real.exp (logitR A b T - shift A b) : ℝ) : EReal) := by
  rw [val_main_v23_apply, val_main_cst_1_apply]
  simp only [idx_v23, stage22 A hA]
  rw [Ideal.ofBits_def, Ideal.ofBits_zero_f32, zero_add, coe_sum]

theorem idx_v24_v25 (b : Fin 64) (T : Fin 1024) (c : Fin 1) :
    idx_main_v24 (idx_main_v25 (ix3 b T c)) = ix2 b (0 : Fin 1) := by
  funext a; match a with | ⟨0, _⟩ => rfl | ⟨1, _⟩ => rfl

/-- The quotient at (b, T, 0) is the attention weight. -/
theorem stage26 (hA : A.Finite) (b : Fin 64) (T : Fin 1024) (c : Fin 1) :
    val_main_v26 (F := Ideal) A.enc A.dec A.W1 A.b1 A.W2 A.b2 A.V A.bV (ix3 b T c) = ((weight A b T : ℝ) : EReal) := by
  have hpos : (∑ T' : Fin 1024, Real.exp (logitR A b T' - shift A b)) ≠ 0 :=
    (Finset.sum_pos (fun i _ => Real.exp_pos _) ⟨T, Finset.mem_univ T⟩).ne'
  rw [val_main_v26_apply, val_main_v25_apply, val_main_v24_apply, idx_v24_v25, stage22 A hA, stage23 A hA,
    Ideal.hostDivf_def, Ideal.div_coe hpos, ← EReal.coe_mul, softmax_shift]
  rfl

/-! ## The two results -/

theorem idx_v30 (b : Fin 64) (T : Fin 1024) : idx_main_v30 (ix2 b T) = ix3 b T (0 : Fin 1) := by
  funext a
  match a with
  | ⟨0, _⟩ => exact Fin.ext (by have := b.isLt; have := T.isLt; show (b.val * 1024 + T.val) / 1024 = b.val; omega)
  | ⟨1, _⟩ => exact Fin.ext (by have := b.isLt; have := T.isLt; show (b.val * 1024 + T.val) / 1 % 1024 = T.val; omega)
  | ⟨2, _⟩ => rfl

/-- The reference's second result is the array of attention weights. -/
theorem ref_attn (hA : A.Finite) :
    val_main_v30 (F := Ideal) A.enc A.dec A.W1 A.b1 A.W2 A.b2 A.V A.bV = attn A := by
  funext i
  obtain ⟨b, T, rfl⟩ : ∃ (b : Fin 64) (T : Fin 1024), i = ix2 b T := ⟨i 0, i 1, eq_ix2 i⟩
  rw [val_main_v30_apply, idx_v30, stage26 A hA, attn_apply]

theorem idx_v29 (b : Fin 64) (f : Fin 512) (k : Fin 1024) : idx_main_v29 (ix2 b f) k = ix3 b k f := by
  funext a; match a with | ⟨0, _⟩ => rfl | ⟨1, _⟩ => rfl | ⟨2, _⟩ => rfl

theorem idx_v27 (b : Fin 64) (T : Fin 1024) (f : Fin 512) : idx_main_v27 (ix3 b T f) = ix3 b T (0 : Fin 1) := by
  funext a; match a with | ⟨0, _⟩ => rfl | ⟨1, _⟩ => rfl | ⟨2, _⟩ => rfl

/-- The reference's first result is the array of context vectors. -/
theorem ref_context (hA : A.Finite) :
    val_main_v29 (F := Ideal) A.enc A.dec A.W1 A.b1 A.W2 A.b2 A.V A.bV = context A := by
  funext i
  obtain ⟨b, f, rfl⟩ : ∃ (b : Fin 64) (f : Fin 512), i = ix2 b f := ⟨i 0, i 1, eq_ix2 i⟩
  rw [val_main_v29_apply, val_main_cst_2_apply, context_apply]
  simp only [idx_v29, val_main_v28_apply, val_main_v27_apply, idx_v27, stage26 A hA, Ideal.mulf_def]
  rw [Ideal.ofBits_def, Ideal.ofBits_zero_f32, zero_add, coe_sum]
  refine Finset.sum_congr rfl fun T _ => ?_
  rw [EReal.coe_mul]
  exact congrArg _ ((hA.enc (ix3 b T f)).coe_toReal).symm

end Cert.Attention.Reference

end
-- ==== Proof.OnlineSoftmax.lean ====
/-
  The online softmax of one batch row, as pure algebra. The 1024 time steps are visited in 8 blocks of 128. After n blocks
  the running maximum is some real level μ, and the three other running quantities are the normaliser, the weights and the
  weighted sums of the first 128·n steps, all measured relative to that level:
      l = Σ_{T < 128n} exp(ℓ T − μ),   p T = exp(ℓ T − μ) (T < 128n),   c f = Σ_{T < 128n} exp(ℓ T − μ)·x T f.
  A block replaces the level μ by a new level μ' and multiplies every old quantity by exp(μ − μ'); since
  exp(μ − μ')·exp(ℓ T − μ) = exp(ℓ T − μ') this re-expresses the old quantities at the new level, and the block's own 128
  terms exp(ℓ T − μ') are added. The value of the level never matters: only that it is a real number. After the eighth
  block every step is counted and dividing by l gives the softmax weights and the weighted average, in which the level
  cancels: exp(ℓ T − μ) / Σ exp(ℓ T' − μ) = exp(ℓ T) / Σ exp(ℓ T').
-/
import Idealize.ShloMosaic.PureOps.Ideal

noncomputable section

open scoped BigOperators

namespace Cert.Attention.Online

open Idealize.ShloMosaic

/-- The unnormalised weight of step T relative to the level μ, counted only among the first 128·n steps. -/
def part (ℓ : Fin 1024 → ℝ) (n : ℕ) (μ : ℝ) (T : Fin 1024) : ℝ := if T.val < 128 * n then Real.exp (ℓ T - μ) else 0

/-- The four running quantities of one batch row after n blocks of 128 steps, all relative to one real level μ. -/
structure RowState (ℓ : Fin 1024 → ℝ) (x : Fin 1024 → Fin 512 → ℝ) (n : ℕ) (μ : ℝ) (mS lS : EReal)
    (pS : Fin 1024 → EReal) (cS : Fin 512 → EReal) : Prop where
  hm : mS = (μ : EReal)
  hl : lS = ((∑ T : Fin 1024, part ℓ n μ T : ℝ) : EReal)
  hp : ∀ T, pS T = ((part ℓ n μ T : ℝ) : EReal)
  hc : ∀ f, cS f = ((∑ T : Fin 1024, part ℓ n μ T * x T f : ℝ) : EReal)

/-! ## Four words -/

theorem word_bot : Ideal.ofBits .f32 0xFF800000#32 = (⊥ : EReal) := by
  simp [Ideal.ofBits, Ideal.ieee]

theorem word_one : Ideal.ofBits .f32 0x3F800000#32 = (1 : EReal) := by
  simp [Ideal.ofBits, Ideal.ieee, -EReal.coe_mul]; norm_num

theorem word_zero : Ideal.ofBits .f32 0x00000000#32 = (0 : EReal) := by
  simp [Ideal.ofBits, Ideal.ieee]

/-- The word 0xFF61B1E6 has exponent field 254, not 255: it denotes a real number. -/
theorem word_start_real : ∃ m0 : ℝ, Ideal.ofBits .f32 0xFF61B1E6#32 = (m0 : EReal) := by
  unfold Ideal.ofBits Ideal.ieee
  dsimp only
  rw [if_neg (by decide), if_neg (by decide)]
  exact ⟨_, rfl⟩

/-! ## Sums of reals inside the extended reals -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-! ## The weights at two levels -/

theorem part_zero (ℓ : Fin 1024 → ℝ) (μ : ℝ) (T : Fin 1024) : part ℓ 0 μ T = 0 := by
  simp [part]

theorem part_eight (ℓ : Fin 1024 → ℝ) (μ : ℝ) (T : Fin 1024) : part ℓ 8 μ T = Real.exp (ℓ T - μ) := by
  have h : T.val < 128 * 8 := by have := T.isLt; omega
  unfold part
  rw [if_pos h]

/-- One more block: the old weights rescaled from level μ to level μ', plus the weights of the steps in the new block. -/
theorem part_succ (ℓ : Fin 1024 → ℝ) (n : ℕ) (μ μ' : ℝ) (T : Fin 1024) :
    part ℓ (n + 1) μ' T = part ℓ n μ T * Real.exp (μ - μ')
      + (if 128 * n ≤ T.val ∧ T.val < 128 * n + 128 then Real.exp (ℓ T - μ') else 0) := by
  unfold part
  by_cases h1 : T.val < 128 * n
  · have h3 : T.val < 128 * (n + 1) := by omega
    have h4 : ¬(128 * n ≤ T.val ∧ T.val < 128 * n + 128) := by omega
    rw [if_pos h1, if_pos h3, if_neg h4, add_zero, ← Real.exp_add]
    congr 1; ring
  · by_cases h2 : T.val < 128 * n + 128
    · have h3 : T.val < 128 * (n + 1) := by omega
      have h4 : 128 * n ≤ T.val ∧ T.val < 128 * n + 128 := ⟨by omega, h2⟩
      rw [if_neg h1, if_pos h3, if_pos h4]; ring
    · have h3 : ¬ T.val < 128 * (n + 1) := by omega
      have h4 : ¬(128 * n ≤ T.val ∧ T.val < 128 * n + 128) := by omega
      rw [if_neg h1, if_neg h3, if_neg h4]; ring

/-- A sum over the 1024 steps of a function supported in block n is the sum over the 128 steps of that block. -/
theorem sum_band (n : ℕ) (hn : n < 8) (h : Fin 1024 → ℝ) :
    ∑ T : Fin 1024, (if 128 * n ≤ T.val ∧ T.val < 128 * n + 128 then h T else 0)
      = ∑ k : Fin 128, h ⟨128 * n + k.val, by omega⟩ := by
  symm
  refine Fintype.sum_of_injective (fun k : Fin 128 => (⟨128 * n + k.val, by omega⟩ : Fin 1024)) ?_ _ _ ?_ ?_
  · intro a b hab
    have hv : 128 * n + a.val = 128 * n + b.val := congrArg Fin.val hab
    exact Fin.ext (by omega)
  · intro T hT
    rw [if_neg]
    rintro ⟨h1, h2⟩
    exact hT ⟨⟨T.val - 128 * n, by omega⟩, Fin.ext (show 128 * n + (T.val - 128 * n) = T.val by omega)⟩
  · intro k
    have hk : 128 * n ≤ 128 * n + k.val ∧ 128 * n + k.val < 128 * n + 128 := ⟨by omega, by omega⟩
    exact (if_pos hk).symm

/-- The sums after one more block, against any factor g: the old sum rescaled plus the block's own 128 terms. -/
theorem sum_part_succ (ℓ : Fin 1024 → ℝ) (n : ℕ) (hn : n < 8) (μ μ' : ℝ) (g : Fin 1024 → ℝ) :
    ∑ T : Fin 1024, part ℓ (n + 1) μ' T * g T
      = (∑ T : Fin 1024, part ℓ n μ T * g T) * Real.exp (μ - μ')
        + ∑ k : Fin 128, Real.exp (ℓ ⟨128 * n + k.val, by omega⟩ - μ') * g ⟨128 * n + k.val, by omega⟩ := by
  rw [← sum_band n hn (fun T => Real.exp (ℓ T - μ') * g T), Finset.sum_mul, ← Finset.sum_add_distrib]
  refine Finset.sum_congr rfl fun T _ => ?_
  rw [part_succ ℓ n μ μ' T]
  split_ifs <;> ring

/-! ## The start, one block, and the end -/

/-- Before the first block nothing is counted: every running quantity is zero, at any starting level. -/
theorem init (ℓ : Fin 1024 → ℝ) (x : Fin 1024 → Fin 512 → ℝ) (m0 : ℝ) :
    RowState ℓ x 0 m0 (m0 : EReal) 0 (fun _ => 0) (fun _ => 0) where
  hm := rfl
  hl := by simp [part_zero]
  hp := fun T => by simp [part_zero]
  hc := fun f => by simp [part_zero]

/-- One block. The new level is the larger of the old level and the block's largest logit: a real number, whatever its
    value. Every old quantity is multiplied by exp(μ − μ'), which moves it to the new level, and the block's 128 terms at the
    new level are added (for the weights: written into the block's 128 places). -/
theorem step {ℓ : Fin 1024 → ℝ} {x : Fin 1024 → Fin 512 → ℝ} {n : ℕ} {μ : ℝ} {mS lS : EReal}
    {pS : Fin 1024 → EReal} {cS : Fin 512 → EReal}
    (hst : RowState ℓ x n μ mS lS pS cS) (hn : n < 8)
    (lt : Fin 128 → EReal) (xt : Fin 128 → Fin 512 → EReal)
    (hlt : ∀ k : Fin 128, lt k = ((ℓ ⟨128 * n + k.val, by omega⟩ : ℝ) : EReal))
    (hxt : ∀ (k : Fin 128) (f : Fin 512), xt k f = ((x ⟨128 * n + k.val, by omega⟩ f : ℝ) : EReal))
    (m' l' : EReal) (p' : Fin 1024 → EReal) (c' : Fin 512 → EReal)
    (hm' : m' = max mS ((Finset.univ : Finset (Fin 128)).fold max (Ideal.ofBits .f32 0xFF800000#32) lt))
    (hl' : l' = Ideal.exp (mS - m') * lS + ∑ k : Fin 128, Ideal.exp (lt k - m'))
    (hp_in : ∀ k : Fin 128, p' ⟨128 * n + k.val, by omega⟩ = Ideal.exp (lt k - m'))
    (hp_out : ∀ T : Fin 1024, ¬(128 * n ≤ T.val ∧ T.val < 128 * n + 128) → p' T = pS T * Ideal.exp (mS - m'))
    (hc' : ∀ f : Fin 512, c' f = cS f * Ideal.exp (mS - m') + ∑ k : Fin 128, Ideal.exp (lt k - m') * xt k f) :
    ∃ μ' : ℝ, RowState ℓ x (n + 1) μ' m' l' p' c' := by
  obtain ⟨hm, hl, hp, hc⟩ := hst
  -- the new level is below +∞: the old level and every logit of the block are
  have htop : m' ≠ ⊤ := by
    rw [hm', hm]
    apply ne_of_lt
    rw [max_lt_iff]
    refine ⟨EReal.coe_lt_top μ, ?_⟩
    rw [Finset.fold_max_lt]
    refine ⟨?_, fun k _ => ?_⟩
    · rw [word_bot]; exact bot_lt_top
    · rw [hlt k]; exact EReal.coe_lt_top _
  -- and above −∞: it is at least the old level
  have hbot : m' ≠ ⊥ := by
    rw [hm', hm]
    exact ne_of_gt (lt_of_lt_of_le (EReal.bot_lt_coe μ) (le_max_left _ _))
  obtain ⟨μ', hμ'⟩ : ∃ μ' : ℝ, m' = (μ' : EReal) := ⟨m'.toReal, (EReal.coe_toReal htop hbot).symm⟩
  -- the rescaling factor and the block's terms, as reals
  have hs : Ideal.exp (mS - m') = ((Real.exp (μ - μ') : ℝ) : EReal) := by
    rw [hm, hμ', ← EReal.coe_sub, Ideal.exp_coe]
  have hk : ∀ k : Fin 128,
      Ideal.exp (lt k - m') = ((Real.exp (ℓ ⟨128 * n + k.val, by omega⟩ - μ') : ℝ) : EReal) := by
    intro k
    rw [hlt k, hμ', ← EReal.coe_sub, Ideal.exp_coe]
  -- a step of the block, wherever it is named from, holds the block's term
  have hin : ∀ (k : Fin 128) (T : Fin 1024), T.val = 128 * n + k.val →
      p' T = ((Real.exp (ℓ T - μ') : ℝ) : EReal) := by
    intro k
    have hb : 128 * n + k.val < 1024 := by omega
    intro T hT
    have eT : T = ⟨128 * n + k.val, hb⟩ := Fin.ext hT
    subst eT
    rw [hp_in k, hk k]
  refine ⟨μ', hμ', ?_, ?_, ?_⟩
  · -- the normaliser
    rw [hl', hs, hl]
    simp only [hk]
    rw [← coe_sum, ← EReal.coe_mul, ← EReal.coe_add]
    congr 1
    have e := sum_part_succ ℓ n hn μ μ' (fun _ => 1)
    simp only [mul_one] at e
    rw [e]; ring
  · -- the weights
    intro T
    by_cases hT : 128 * n ≤ T.val ∧ T.val < 128 * n + 128
    · have h3 : T.val < 128 * (n + 1) := by omega
      rw [hin ⟨T.val - 128 * n, by omega⟩ T (show T.val = 128 * n + (T.val - 128 * n) by omega)]
      unfold part
      rw [if_pos h3]
    · rw [hp_out T hT, hp T, hs, ← EReal.coe_mul, part_succ ℓ n μ μ' T, if_neg hT, add_zero]
  · -- the weighted sums
    intro f
    rw [hc' f, hc f, hs]
    simp only [hk, hxt, ← EReal.coe_mul]
    rw [← coe_sum, ← EReal.coe_add, sum_part_succ ℓ n hn μ μ' (fun T => x T f)]

/-- The level cancels from a softmax weight. -/
theorem softmax_level (ℓ : Fin 1024 → ℝ) (μ : ℝ) (T : Fin 1024) :
    Real.exp (ℓ T - μ) * (1 / ∑ T' : Fin 1024, Real.exp (ℓ T' - μ))
      = Real.exp (ℓ T) / ∑ T' : Fin 1024, Real.exp (ℓ T') := by
  simp only [Real.exp_sub]
  rw [← Finset.sum_div]
  have h1 : Real.exp μ ≠ 0 := (Real.exp_pos μ).ne'
  have h2 : (∑ T' : Fin 1024, Real.exp (ℓ T')) ≠ 0 :=
    (Finset.sum_pos (fun i _ => Real.exp_pos _) Finset.univ_nonempty).ne'
  field_simp

/-- After eight blocks the normaliser is a sum of 1024 positive terms. -/
theorem norm_ne_zero (ℓ : Fin 1024 → ℝ) (μ : ℝ) : (∑ T' : Fin 1024, part ℓ 8 μ T') ≠ 0 := by
  simp only [part_eight]
  exact (Finset.sum_pos (fun i _ => Real.exp_pos _) Finset.univ_nonempty).ne'

/-- After eight blocks, a weight divided by the normaliser is the softmax weight. -/
theorem final_attn {ℓ : Fin 1024 → ℝ} {x : Fin 1024 → Fin 512 → ℝ} {μ : ℝ} {mS lS : EReal}
    {pS : Fin 1024 → EReal} {cS : Fin 512 → EReal} (h : RowState ℓ x 8 μ mS lS pS cS) (T : Fin 1024) :
    pS T * Ideal.div (Ideal.ofBits .f32 0x3F800000#32) lS
      = ((Real.exp (ℓ T) / ∑ T' : Fin 1024, Real.exp (ℓ T') : ℝ) : EReal) := by
  rw [h.hp T, h.hl, word_one, Ideal.div_coe (norm_ne_zero ℓ μ), one_mul, ← EReal.coe_mul]
  congr 1
  simp only [part_eight]
  exact softmax_level ℓ μ T

/-- After eight blocks, a weighted sum divided by the normaliser is the average of the rows with the softmax weights. -/
theorem final_ctx {ℓ : Fin 1024 → ℝ} {x : Fin 1024 → Fin 512 → ℝ} {μ : ℝ} {mS lS : EReal}
    {pS : Fin 1024 → EReal} {cS : Fin 512 → EReal} (h : RowState ℓ x 8 μ mS lS pS cS) (f : Fin 512) :
    cS f * Ideal.div (Ideal.ofBits .f32 0x3F800000#32) lS
      = ((∑ T : Fin 1024, (Real.exp (ℓ T) / ∑ T' : Fin 1024, Real.exp (ℓ T')) * x T f : ℝ) : EReal) := by
  rw [h.hc f, h.hl, word_one, Ideal.div_coe (norm_ne_zero ℓ μ), one_mul, ← EReal.coe_mul]
  congr 1
  simp only [part_eight]
  rw [Finset.sum_mul]
  refine Finset.sum_congr rfl fun T _ => ?_
  rw [← softmax_level ℓ μ T]
  ring

end Cert.Attention.Online

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibLanes.lean ====
/-
  Three more layout and lane-sum readings at an index written by coordinates, generic in the extents.

  * Over the extended reals, a sum over the LAST axis of a three-axis array [a, b, c], from the zero accumulator, is at
    (p, k) the sum over q of the array at (p, k, q).
  * A row [1, 1, c] repeated over the two leading axes of [a, b, c]: entry (p, k, q) is the row's entry q.
  * A single entry [1, 1] repeated over [a, b]: every entry is that one.
-/
import Idealize.ShloMosaic.Lib.Pipeline.Value
import Idealize.ShloMosaic.Lib.ValueIdx
import Idealize.ShloMosaic.PureOps.Ideal.Laws

noncomputable section

open scoped BigOperators

namespace Cert.LibLanes

open Idealize.ShloMosaic Idealize.ShloMosaic.ValueIdx

variable {α : Type}

/-- The sum over the last axis of [a, b, c], from the zero accumulator, at (p, k). -/
theorem lane_sum_last3_apply {a b c : Nat} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (k : Fin b) :
    multiReduction .add [2] ⟨2, ![a, b]⟩ src 0x00000000#32 h hφ hacc (ix2 p k) = ∑ q : Fin c, src (ix3 p k q) := by
  refine (Ideal.multiReduction_add_single src 0x00000000#32 h hφ hacc (ix2 p k)).trans ?_
  exact Finset.sum_congr rfl fun q _ => congrArg src (funext fun ax => Fin.ext (by
    match ax with
    | ⟨0, _⟩ => rfl
    | ⟨1, _⟩ => rfl
    | ⟨2, _⟩ => rfl))

/-- [1, 1, c] repeated along its two leading axes. -/
theorem bcast_lead2_apply {a b c : Nat} (x : (⟨3, ![1, 1, c]⟩ : Shape).Idx → α)
    (h : (⟨3, ![1, 1, c]⟩ : Shape).Broadcasts ⟨3, ![a, b, c]⟩) (p : Fin a) (k : Fin b) (q : Fin c) :
    broadcastTo ⟨3, ![a, b, c]⟩ x h (ix3 p k q) = x (ix3 (0 : Fin 1) (0 : Fin 1) q) :=
  broadcastTo_apply x h _ _ (fun ax => match ax with
    | ⟨0, _⟩ => by show 0 = if (1 : Nat) = 1 then 0 else p.val; rw [if_pos rfl]
    | ⟨1, _⟩ => by show 0 = if (1 : Nat) = 1 then 0 else k.val; rw [if_pos rfl]
    | ⟨2, _⟩ => by
        show q.val = if c = 1 then 0 else q.val
        have := q.isLt
        split_ifs <;> omega)

/-- [1, 1] repeated over [a, b]. -/
theorem bcast_one2_apply {a b : Nat} (x : (⟨2, ![1, 1]⟩ : Shape).Idx → α)
    (h : (⟨2, ![1, 1]⟩ : Shape).Broadcasts ⟨2, ![a, b]⟩) (p : Fin a) (k : Fin b) :
    broadcastTo ⟨2, ![a, b]⟩ x h (ix2 p k) = x (ix2 (0 : Fin 1) (0 : Fin 1)) :=
  broadcastTo_apply x h _ _ (fun ax => match ax with
    | ⟨0, _⟩ => by show 0 = if (1 : Nat) = 1 then 0 else p.val; rw [if_pos rfl]
    | ⟨1, _⟩ => by show 0 = if (1 : Nat) = 1 then 0 else k.val; rw [if_pos rfl])

end Cert.LibLanes

end
-- ==== Proof.KernelOps.lean ====
/-
  The kernel body's arithmetic read entry by entry, over the extended reals.

  One grid point handles 16 batch rows and 128 time steps. From the encoder block x0 [16,128,512], the projection
  matrix x1 [512,512], the decoder term x2 [16,1,512], the scoring row x3 [1,1,512] and its bias x4 [1,1] the body
  forms, for row r and step k, the logit
      Σ_u tanh( Σ_f x0(r,k,f)·x1(f,u) + x2(r,0,u) ) · x3(0,0,u) + x4(0,0),
  and then updates the four running quantities of a streaming softmax (running maximum, running normaliser, running
  weighted sum of encoder rows, and the table of unnormalised weights), each of which is read here at an entry as a
  function of the entries it depends on.
-/
import proofs.«177093_j35699768164501_2_alg».proof.Proof.Gen.KernelIdeal.Skeleton
import proofs.«177093_j35699768164501_2_alg».proof.Proof.LibRows
import proofs.«177093_j35699768164501_2_alg».proof.Proof.LibRowMax
import proofs.«177093_j35699768164501_2_alg».proof.Proof.LibMatmulPlain
import proofs.«177093_j35699768164501_2_alg».proof.Proof.LibLanes
import Idealize.ShloMosaic.Lib.ValueIdx
import Idealize.ShloMosaic.Lib.Pipeline.Value

noncomputable section

open scoped BigOperators

namespace Cert.Attention.KernelOps

open Cert.KernelIdeal Cert.KernelIdeal.Gen Idealize.ShloMosaic Idealize.ShloMosaic.ValueIdx

/-- The logit of row r, step k of one block. -/
def blockLogit (x0 : S16x128x512.Idx → EReal) (x1 : S512x512.Idx → EReal) (x2 : S16x1x512.Idx → EReal)
    (x3 : S1x1x512.Idx → EReal) (x4 : S1x1.Idx → EReal) (r : Fin 16) (k : Fin 128) : EReal :=
  (∑ u : Fin 512, Ideal.tanh ((∑ f : Fin 512, x0 (ix3 r k f) * x1 (ix2 f u)) + x2 (ix3 r (0 : Fin 1) u))
      * x3 (ix3 (0 : Fin 1) (0 : Fin 1) u)) + x4 (ix2 (0 : Fin 1) (0 : Fin 1))

/-- The body's logits at an entry. -/
theorem pay8_apply (x0 : Vec Ideal S16x128x512 .f32) (x1 : Vec Ideal S512x512 .bf16) (x2 : Vec Ideal S16x1x512 .f32)
    (x3 : Vec Ideal S1x1x512 .f32) (x4 : Vec Ideal S1x1 .f32) (r : Fin 16) (k : Fin 128) :
    k0_pay8 (F := Ideal) x0 x1 x2 x3 x4 (ix2 r k) = blockLogit x0 x1 x2 x3 x4 r k := by
  unfold k0_pay8 blockLogit
  (try dsimp only)
  refine (addf_apply _ _ _).trans ?_
  refine congrArg₂ (· + ·) ?_ ?_
  · refine (Cert.LibLanes.lane_sum_last3_apply _ _ _ _ r k).trans ?_
    refine Finset.sum_congr rfl fun u _ => ?_
    refine (mulf_apply _ _ _).trans ?_
    refine congrArg₂ (· * ·) ?_ ?_
    · show Ideal.tanh _ = Ideal.tanh _
      refine congrArg Ideal.tanh ?_
      refine (addf_apply _ _ _).trans ?_
      refine congrArg₂ (· + ·) ?_ ?_
      · refine (Cert.LibRows.unflatten_rows_apply _ _ r k u ⟨r.val * 128 + k.val, by omega⟩ rfl).trans ?_
        refine (Cert.LibMatmulPlain.matmul_plain_zero_apply _ rfl none _ _ _ u).trans ?_
        refine Finset.sum_congr rfl fun f _ => ?_
        refine congrArg₂ (· * ·) ?_ ?_
        · exact Cert.LibRows.flatten_rows_apply _ _ r k f _ rfl
        · exact congrFun (shapeCast_self _ _) _
      · refine (Cert.LibRows.bcast_mid_apply _ _ r k u).trans ?_
        exact congrFun (shapeCast_self _ _) _
    · refine (Cert.LibLanes.bcast_lead2_apply _ _ r k u).trans ?_
      exact congrFun (shapeCast_self _ _) _
  · refine (Cert.LibLanes.bcast_one2_apply _ _ r k).trans ?_
    exact congrFun (shapeCast_self _ _) _

/-- The largest logit of row r over the block's 128 steps, folded from the bottom element. -/
def tileMax (x0 : S16x128x512.Idx → EReal) (x1 : S512x512.Idx → EReal) (x2 : S16x1x512.Idx → EReal)
    (x3 : S1x1x512.Idx → EReal) (x4 : S1x1.Idx → EReal) (r : Fin 16) : EReal :=
  (Finset.univ : Finset (Fin 128)).fold max (Ideal.ofBits .f32 0xFF800000#32) (fun k => blockLogit x0 x1 x2 x3 x4 r k)

/-- The new running maximum of row r: the old one against the block's largest logit. -/
theorem pay9_apply (x0 : Vec Ideal S16x128x512 .f32) (x1 : Vec Ideal S512x512 .bf16) (x2 : Vec Ideal S16x1x512 .f32)
    (x3 : Vec Ideal S1x1x512 .f32) (x4 : Vec Ideal S1x1 .f32) (xs0 : Vec Ideal S16x1 .f32) (r : Fin 16) (u : Fin 1) :
    k0_pay9 (F := Ideal) x0 x1 x2 x3 x4 xs0 (ix2 r u) = max (xs0 (ix2 r u)) (tileMax x0 x1 x2 x3 x4 r) := by
  unfold k0_pay9 tileMax
  (try dsimp only)
  refine (maximumf_apply _ _ _).trans ?_
  refine congrArg (max _) ?_
  refine (Cert.LibRows.col_cast_apply _ _ r u).trans ?_
  refine (Cert.LibRowMax.lane_max_last_apply _ _ _ _ _ r).trans ?_
  exact Finset.fold_congr fun k _ => pay8_apply x0 x1 x2 x3 x4 r k

/-- The rescaling factor exp(old maximum − new maximum). -/
theorem pay10_apply (x0 : Vec Ideal S16x128x512 .f32) (x1 : Vec Ideal S512x512 .bf16) (x2 : Vec Ideal S16x1x512 .f32)
    (x3 : Vec Ideal S1x1x512 .f32) (x4 : Vec Ideal S1x1 .f32) (xs0 : Vec Ideal S16x1 .f32) (r : Fin 16) (u : Fin 1) :
    k0_pay10 (F := Ideal) x0 x1 x2 x3 x4 xs0 (ix2 r u)
      = Ideal.exp (xs0 (ix2 r u) - k0_pay9 (F := Ideal) x0 x1 x2 x3 x4 xs0 (ix2 r u)) := rfl

/-- The block's unnormalised weights exp(logit − new maximum). -/
theorem pay11_apply (x0 : Vec Ideal S16x128x512 .f32) (x1 : Vec Ideal S512x512 .bf16) (x2 : Vec Ideal S16x1x512 .f32)
    (x3 : Vec Ideal S1x1x512 .f32) (x4 : Vec Ideal S1x1 .f32) (xs0 : Vec Ideal S16x1 .f32) (r : Fin 16) (k : Fin 128) :
    k0_pay11 (F := Ideal) x0 x1 x2 x3 x4 xs0 (ix2 r k)
      = Ideal.exp (blockLogit x0 x1 x2 x3 x4 r k - k0_pay9 (F := Ideal) x0 x1 x2 x3 x4 xs0 (ix2 r (0 : Fin 1))) := by
  unfold k0_pay11
  (try dsimp only)
  show Ideal.exp (_ - _) = _
  refine congrArg Ideal.exp ?_
  refine congrArg₂ (· - ·) (pay8_apply x0 x1 x2 x3 x4 r k) ?_
  exact Cert.LibRows.bcast_col_apply _ _ r k

/-- The old normaliser rescaled. -/
theorem pay12_apply (x0 : Vec Ideal S16x128x512 .f32) (x1 : Vec Ideal S512x512 .bf16) (x2 : Vec Ideal S16x1x512 .f32)
    (x3 : Vec Ideal S1x1x512 .f32) (x4 : Vec Ideal S1x1 .f32) (xs0 xs1 : Vec Ideal S16x1 .f32) (r : Fin 16) (u : Fin 1) :
    k0_pay12 (F := Ideal) x0 x1 x2 x3 x4 xs0 xs1 (ix2 r u)
      = k0_pay10 (F := Ideal) x0 x1 x2 x3 x4 xs0 (ix2 r u) * xs1 (ix2 r u) := rfl

/-- The new normaliser: the rescaled old one plus the block's weights summed. -/
theorem pay17_apply (v32 : FVec Ideal S16x128 .f32) (v34 : FVec Ideal S16x1 .f32) (r : Fin 16) (u : Fin 1) :
    k0_pay17 (F := Ideal) v32 v34 (ix2 r u) = v34 (ix2 r u) + ∑ k : Fin 128, v32 (ix2 r k) := by
  unfold k0_pay17
  (try dsimp only)
  refine (congrFun (shapeCast_self _ _) _).trans ?_
  refine (addf_apply _ _ _).trans ?_
  refine congrArg (_ + ·) ?_
  refine (Cert.LibRows.col_cast_apply _ _ r u).trans ?_
  exact Cert.LibRows.lane_sum_last_apply _ _ _ _ r

/-- The weight table rescaled. -/
theorem pay13_apply (v29 : FVec Ideal S16x1 .f32) (v40 : Vec Ideal S16x1024 .f32) (r : Fin 16) (T : Fin 1024) :
    k0_pay13 (F := Ideal) v29 v40 (ix2 r T) = v40 (ix2 r T) * v29 (ix2 r (0 : Fin 1)) := by
  unfold k0_pay13
  (try dsimp only)
  refine (congrFun (shapeCast_self _ _) _).trans ?_
  refine (mulf_apply _ _ _).trans ?_
  exact congrArg (_ * ·) (Cert.LibRows.bcast_col_apply _ _ r T)

theorem pay14_eq (v32 : FVec Ideal S16x128 .f32) : k0_pay14 (F := Ideal) v32 = v32 := shapeCast_self _ _

theorem pay16_eq (v27 : FVec Ideal S16x1 .f32) : k0_pay16 (F := Ideal) v27 = v27 := shapeCast_self _ _

/-- The new weighted sum of encoder rows: the old one rescaled plus the block's rows weighted. -/
theorem pay15_apply (v3 : Vec Ideal S16x128x512 .f32) (v29 : FVec Ideal S16x1 .f32) (v32 : FVec Ideal S16x128 .f32)
    (v52 : Vec Ideal S16x1x512 .f32) (r : Fin 16) (u : Fin 1) (f : Fin 512) :
    k0_pay15 (F := Ideal) v3 v29 v32 v52 (ix3 r u f)
      = v52 (ix3 r u f) * v29 (ix2 r u) + ∑ k : Fin 128, v32 (ix2 r k) * v3 (ix3 r k f) := by
  unfold k0_pay15
  (try dsimp only)
  refine (congrFun (shapeCast_self _ _) _).trans ?_
  refine (addf_apply _ _ _).trans ?_
  refine congrArg₂ (· + ·) ?_ ?_
  · refine (mulf_apply _ _ _).trans ?_
    refine congrArg (_ * ·) ?_
    refine (Cert.LibRows.bcast_last_apply _ _ r u f).trans ?_
    exact Cert.LibRows.append_unit_apply _ _ r u (0 : Fin 1)
  · refine (Cert.LibRows.insert_mid_apply _ _ r u f).trans ?_
    refine (Cert.LibRows.lane_sum_mid_apply _ _ _ _ r f).trans ?_
    refine Finset.sum_congr rfl fun k _ => ?_
    refine (mulf_apply _ _ _).trans ?_
    refine congrArg (· * _) ?_
    refine (Cert.LibRows.bcast_last_apply _ _ r k f).trans ?_
    exact Cert.LibRows.append_unit_apply _ _ r k (0 : Fin 1)

/-- The reciprocal of the final normaliser. -/
theorem pay1_apply (v72 : Vec Ideal S16x1 .f32) (r : Fin 16) (u : Fin 1) :
    k0_pay1 (F := Ideal) v72 (ix2 r u) = Ideal.div (Ideal.ofBits .f32 0x3F800000#32) (v72 (ix2 r u)) := rfl

/-- The context block: the weighted sum times the reciprocal normaliser. -/
theorem pay2_apply (v72 : Vec Ideal S16x1 .f32) (v75 : Vec Ideal S16x1x512 .f32) (r : Fin 16) (u : Fin 1) (f : Fin 512) :
    k0_pay2 (F := Ideal) v72 v75 (ix3 r u f) = v75 (ix3 r u f) * k0_pay1 (F := Ideal) v72 (ix2 r u) := by
  unfold k0_pay2
  (try dsimp only)
  refine (mulf_apply _ _ _).trans ?_
  refine congrArg (_ * ·) ?_
  refine (Cert.LibRows.bcast_last_apply _ _ r u f).trans ?_
  exact Cert.LibRows.append_unit_apply _ _ r u (0 : Fin 1)

/-- The attention block: the weight table times the reciprocal normaliser. -/
theorem pay3_apply (v72 : Vec Ideal S16x1 .f32) (v80 : Vec Ideal S16x1024 .f32) (r : Fin 16) (T : Fin 1024) :
    k0_pay3 (F := Ideal) v72 v80 (ix2 r T) = v80 (ix2 r T) * k0_pay1 (F := Ideal) v72 (ix2 r (0 : Fin 1)) := by
  unfold k0_pay3
  (try dsimp only)
  refine (mulf_apply _ _ _).trans ?_
  exact congrArg (_ * ·) (Cert.LibRows.bcast_col_apply _ _ r T)

/-- The four starting values: the finite stand-in for the bottom element, and three zero arrays. -/
theorem pay4_apply (i : S16x1.Idx) : k0_pay4 (F := Ideal) i = Ideal.ofBits .f32 0xFF61B1E6#32 := by
  unfold k0_pay4
  exact (congrFun (shapeCast_self _ _) i).trans rfl

theorem pay5_apply (i : S16x1.Idx) : k0_pay5 (F := Ideal) i = Ideal.ofBits .f32 0x00000000#32 := by
  unfold k0_pay5
  exact (congrFun (shapeCast_self _ _) i).trans rfl

theorem pay6_apply (i : S16x1x512.Idx) : k0_pay6 (F := Ideal) i = Ideal.ofBits .f32 0x00000000#32 := by
  unfold k0_pay6
  exact (congrFun (shapeCast_self _ _) i).trans rfl

theorem pay7_apply (i : S16x1024.Idx) : k0_pay7 (F := Ideal) i = Ideal.ofBits .f32 0x00000000#32 := by
  unfold k0_pay7
  exact (congrFun (shapeCast_self _ _) i).trans rfl

end Cert.Attention.KernelOps

end
-- ==== Proof.LibOverlay.lean ====
/-
  Reading back what stores leave in a buffer, as a function of what it held before.

  A store through a rectangle `r` replaces the buffer's values on `r` by the payload and keeps every other value:
  read back, the contents are `r.overlay` of the earlier contents with the payload (`read_writes_cons`, and
  `read_writes_one` for a single store over known contents). A store through the whole-shape rectangle at zero
  offsets leaves exactly its payload, whatever was there (`read_writes_cons_whole`), and an overlay through
  that rectangle is the payload (`overlay_unit_zero`). Generic in the view, the shape and the element type.
-/
import Idealize.ShloMosaic.Lib.Writes
import Idealize.ShloMosaic.Lib.Pipeline.Value

noncomputable section

namespace Cert.LibOverlay

open Idealize.ShloMosaic

variable {sig : RefSig} {κ : Kind} {sp : Space} {s : Shape} {e : EltTy} {Val : EltTy → Type}

/-- The rank-4 zero offsets, however they are spelt. -/
theorem zeros4 : (![0, 0, 0, 0] : Fin 4 → ℕ) = fun _ => 0 := by funext a; fin_cases a <;> rfl

/-- The last store's rectangle holds its payload; off it the earlier stores' result is kept. -/
theorem read_writes_cons (v : View sig κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [View.writes_cons, View.read_slice_write_of_not_mem r _ _ _ (by rw [Rect.map_emb_univ]; exact hy),
      Rect.overlay_of_not_mem _ _ _ hy]

/-- One store over known contents. -/
theorem read_writes_one (v : View sig κ sp s e) (f : v.ty.Contents Val) (r : Rect s) (w : r.shape.Idx → Val e) :
    v.read Val (v.writes Val f [⟨r, w⟩]) = r.overlay (v.read Val f) w :=
  read_writes_cons v f r w []

/-- An overlay through the whole-shape rectangle is the payload. -/
theorem overlay_unit_zero {off : Fin s.rank → Nat} (h : off = fun _ => 0) (inb : ∀ a, off a + s.size a ≤ s.size a)
    (X : s.Idx → Val e) (w : s.Idx → Val e) : (Rect.unit off s.size inb).overlay X w = w := by
  subst h; funext y
  have e := Rect.overlay_emb (Rect.whole s) X w y
  rw [Rect.emb_whole_apply] at e
  exact e

/-- A store through the whole-shape rectangle, last, leaves its payload. -/
theorem read_writes_cons_whole (v : View sig κ sp s e) (f : v.ty.Contents Val) {off : Fin s.rank → Nat}
    (h : off = fun _ => 0) (inb : ∀ a, off a + s.size a ≤ s.size a) (w : s.Idx → Val e) (L : List (View.Piece Val s e)) :
    v.read Val (v.writes Val f ((⟨Rect.unit off s.size inb, w⟩ : View.Piece Val s e) :: L)) = w := by
  rw [read_writes_cons, overlay_unit_zero h inb]

end Cert.LibOverlay

end
-- ==== Proof.Pieces.lean ====
/-
  What one grid point's body leaves in the four carried buffers and, at a row block's last step, in the two output
  blocks, as named functions of the block's inputs and of what the buffers held before.

  The body updates a running maximum, a running normaliser, a running weighted sum of encoder rows and a table of
  unnormalised weights (upd0 … upd3). At the first of a row block's eight steps it first resets the four buffers (to a
  very negative finite number and to zeros); at the last step it also writes the two outputs, the weighted sum and the
  weight table each multiplied by the reciprocal of the normaliser. A store that overwrites a whole buffer leaves its
  payload; the store of the step's 128 new weights overwrites one band of columns of the table and keeps the rest.
-/
import proofs.«177093_j35699768164501_2_alg».proof.Proof.Gen.KernelIdeal.Frame
import proofs.«177093_j35699768164501_2_alg».proof.Proof.LibOverlay
import Idealize.ShloMosaic.Lib.Pipeline.Value
import Idealize.ShloMosaic.Lib.Tactic

set_option maxRecDepth 16384

noncomputable section

namespace Cert.Attention.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer after some stores reads what the stores left. -/
theorem readCov_whole {sig : RefSig} {κ : Kind} {sp : Space} {S : Shape} {e : EltTy} {Val : EltTy → Type} [∀ e, Nonempty (Val e)]
    (v : View sig κ sp S e) (L : List (View.Piece Val S e)) {off : Fin S.rank → Nat} (h : off = fun _ => 0)
    (inb : ∀ a, off a + S.size a ≤ S.size a) :
    v.readCov L (Rect.unit off S.size inb).toLoadRect = View.canon L :=
  (View.readCov_eq_canon' v L _).trans (View.ld_unit_zero h inb (View.canon L))

/-- The four running quantities after one block, as functions of the block's inputs and the quantities before it. -/
def upd0 (x0 : Vec F S16x128x512 .f32) (x1 : Vec F S512x512 .bf16) (x2 : Vec F S16x1x512 .f32) (x3 : Vec F S1x1x512 .f32)
    (x4 : Vec F S1x1 .f32) (xs0 : Vec F S16x1 .f32) : Vec F S16x1 .f32 :=
  k0_pay16 (k0_pay9 x0 x1 x2 x3 x4 xs0)

def upd1 (x0 : Vec F S16x128x512 .f32) (x1 : Vec F S512x512 .bf16) (x2 : Vec F S16x1x512 .f32) (x3 : Vec F S1x1x512 .f32)
    (x4 : Vec F S1x1 .f32) (xs0 xs1 : Vec F S16x1 .f32) : Vec F S16x1 .f32 :=
  k0_pay17 (k0_pay11 x0 x1 x2 x3 x4 xs0) (k0_pay12 x0 x1 x2 x3 x4 xs0 xs1)

def upd2 (x0 : Vec F S16x128x512 .f32) (x1 : Vec F S512x512 .bf16) (x2 : Vec F S16x1x512 .f32) (x3 : Vec F S1x1x512 .f32)
    (x4 : Vec F S1x1 .f32) (xs0 : Vec F S16x1 .f32) (xs2 : Vec F S16x1x512 .f32) : Vec F S16x1x512 .f32 :=
  k0_pay15 x0 (k0_pay10 x0 x1 x2 x3 x4 xs0) (k0_pay11 x0 x1 x2 x3 x4 xs0) xs2

def upd3 (i : grid0.Coords) (x0 : Vec F S16x128x512 .f32) (x1 : Vec F S512x512 .bf16) (x2 : Vec F S16x1x512 .f32)
    (x3 : Vec F S1x1x512 .f32) (x4 : Vec F S1x1 .f32) (xs0 : Vec F S16x1 .f32) (xs3 : Vec F S16x1024 .f32) :
    Vec F S16x1024 .f32 :=
  (Rect.unit (s := S16x1024) (k0_off1 i) S16x128.size (k0_off1_inb i)).overlay
    (k0_pay13 (k0_pay10 x0 x1 x2 x3 x4 xs0) xs3) (k0_pay14 (k0_pay11 x0 x1 x2 x3 x4 xs0))

/-- At a row block's first step the running maximum starts from the finite stand-in for the bottom element. -/
theorem first_max (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : cond0_0 i) (hc1 : ¬cond0_1 i) (x0 : Vec F S16x128x512 .f32) (x1 : Vec F S512x512 .bf16) (x2 : Vec F S16x1x512 .f32) (x3 : Vec F S1x1x512 .f32) (x4 : Vec F S1x1 .f32)  :
    sout0_A_0 c i arg2 harg2 arg3 harg3 arg4 harg4 arg5 harg5 arg6 harg6 arg7 harg7 arg8 harg8 arg9 harg9 arg10 harg10 arg11 harg11 arg12 harg12 hc0 hc1 x0 x1 x2 x3 x4  = upd0 x0 x1 x2 x3 x4 k0_pay4 := by
  unfold sout0_A_0
  unfold kernelRun0_A
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At a row block's first step the normaliser starts from zero. -/
theorem first_norm (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : cond0_0 i) (hc1 : ¬cond0_1 i) (x0 : Vec F S16x128x512 .f32) (x1 : Vec F S512x512 .bf16) (x2 : Vec F S16x1x512 .f32) (x3 : Vec F S1x1x512 .f32) (x4 : Vec F S1x1 .f32)  :
    sout0_A_1 c i arg2 harg2 arg3 harg3 arg4 harg4 arg5 harg5 arg6 harg6 arg7 harg7 arg8 harg8 arg9 harg9 arg10 harg10 arg11 harg11 arg12 harg12 hc0 hc1 x0 x1 x2 x3 x4  = upd1 x0 x1 x2 x3 x4 k0_pay4 k0_pay5 := by
  unfold sout0_A_1
  unfold kernelRun0_A
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At a row block's first step the weighted sum starts from zero. -/
theorem first_ctx (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : cond0_0 i) (hc1 : ¬cond0_1 i) (x0 : Vec F S16x128x512 .f32) (x1 : Vec F S512x512 .bf16) (x2 : Vec F S16x1x512 .f32) (x3 : Vec F S1x1x512 .f32) (x4 : Vec F S1x1 .f32)  :
    sout0_A_2 c i arg2 harg2 arg3 harg3 arg4 harg4 arg5 harg5 arg6 harg6 arg7 harg7 arg8 harg8 arg9 harg9 arg10 harg10 arg11 harg11 arg12 harg12 hc0 hc1 x0 x1 x2 x3 x4  = upd2 x0 x1 x2 x3 x4 k0_pay4 k0_pay6 := by
  unfold sout0_A_2
  unfold kernelRun0_A
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At a row block's first step the weight table starts from zero. -/
theorem first_tab (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : cond0_0 i) (hc1 : ¬cond0_1 i) (x0 : Vec F S16x128x512 .f32) (x1 : Vec F S512x512 .bf16) (x2 : Vec F S16x1x512 .f32) (x3 : Vec F S1x1x512 .f32) (x4 : Vec F S1x1 .f32)  :
    sout0_A_3 c i arg2 harg2 arg3 harg3 arg4 harg4 arg5 harg5 arg6 harg6 arg7 harg7 arg8 harg8 arg9 harg9 arg10 harg10 arg11 harg11 arg12 harg12 hc0 hc1 x0 x1 x2 x3 x4  = upd3 i x0 x1 x2 x3 x4 k0_pay4 k0_pay7 := by
  unfold sout0_A_3
  unfold kernelRun0_A
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At a middle step the running maximum is updated from the one before. -/
theorem mid_max (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : ¬cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = upd0 x0 x1 x2 x3 x4 xs0 := by
  unfold sout0_B_0
  unfold kernelRun0_B
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At a middle step the normaliser is updated from the one before. -/
theorem mid_norm (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : ¬cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = upd1 x0 x1 x2 x3 x4 xs0 xs1 := by
  unfold sout0_B_1
  unfold kernelRun0_B
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At a middle step the weighted sum is updated from the one before. -/
theorem mid_ctx (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : ¬cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = upd2 x0 x1 x2 x3 x4 xs0 xs2 := by
  unfold sout0_B_2
  unfold kernelRun0_B
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At a middle step the weight table is updated from the one before. -/
theorem mid_tab (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : ¬cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    sout0_B_3 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = upd3 i x0 x1 x2 x3 x4 xs0 xs3 := by
  unfold sout0_B_3
  unfold kernelRun0_B
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At the last step the running maximum is updated as at a middle step. -/
theorem last_max (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = upd0 x0 x1 x2 x3 x4 xs0 := by
  unfold sout0_C_0
  unfold kernelRun0_C
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At the last step the normaliser is updated as at a middle step. -/
theorem last_norm (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = upd1 x0 x1 x2 x3 x4 xs0 xs1 := by
  unfold sout0_C_1
  unfold kernelRun0_C
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At the last step the weighted sum is updated as at a middle step. -/
theorem last_ctx (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = upd2 x0 x1 x2 x3 x4 xs0 xs2 := by
  unfold sout0_C_2
  unfold kernelRun0_C
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At the last step the weight table is updated as at a middle step. -/
theorem last_tab (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    sout0_C_3 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = upd3 i x0 x1 x2 x3 x4 xs0 xs3 := by
  unfold sout0_C_3
  unfold kernelRun0_C
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At the last step the context block is the updated weighted sum over the updated normaliser. -/
theorem last_out_ctx (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay2 (upd1 x0 x1 x2 x3 x4 xs0 xs1) (upd2 x0 x1 x2 x3 x4 xs0 xs2) := by
  unfold out0_C_5
  unfold kernelRun0_C
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

/-- At the last step the attention block is the updated weight table over the updated normaliser. -/
theorem last_out_attn (c : Dev nD) (i : grid0.Coords) (arg2 : Memref sig .tc .vmem S16x128x512 .f32) (harg2 : arg2.IsWhole) (arg3 : Memref sig .tc .vmem S512x512 .bf16) (harg3 : arg3.IsWhole) (arg4 : Memref sig .tc .vmem S16x1x512 .f32) (harg4 : arg4.IsWhole) (arg5 : Memref sig .tc .vmem S1x1x512 .f32) (harg5 : arg5.IsWhole) (arg6 : Memref sig .tc .vmem S1x1 .f32) (harg6 : arg6.IsWhole) (arg7 : Memref sig .tc .vmem S16x1x512 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1x512 .f32) (harg11 : arg11.IsWhole) (arg12 : Memref sig .tc .vmem S16x1024 .f32) (harg12 : arg12.IsWhole) (hc0 : ¬cond0_0 i) (hc1 : cond0_1 i) (x0 : Vec F S16x128x512 .f32) (x1 : Vec F S512x512 .bf16) (x2 : Vec F S16x1x512 .f32) (x3 : Vec F S1x1x512 .f32) (x4 : Vec F S1x1 .f32) (xs0 : Vec F S16x1 .f32) (xs1 : Vec F S16x1 .f32) (xs2 : Vec F S16x1x512 .f32) (xs3 : Vec F S16x1024 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay3 (upd1 x0 x1 x2 x3 x4 xs0 xs1) (upd3 i x0 x1 x2 x3 x4 xs0 xs3) := by
  unfold out0_C_6
  unfold kernelRun0_C
  dsimp only
  sl_unfold_words
  rw [View.read_writes_junk_eq_canon]
  simp only [View.canon_cons, Cert.LibOverlay.overlay_unit_zero (s := S16x1) (Val := Elt F) (e := .f32) hz2, Cert.LibOverlay.overlay_unit_zero (s := S16x1x512) (Val := Elt F) (e := .f32) hz3, Cert.LibOverlay.overlay_unit_zero (s := S16x1024) (Val := Elt F) (e := .f32) hz2, readCov_whole (S := S16x1) _ _ hz2, readCov_whole (S := S16x1x512) _ _ hz3, readCov_whole (S := S16x1024) _ _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S16x128x512) hz3, View.ld_unit_zero (S := S512x512) hz2, View.ld_unit_zero (S := S16x1x512) hz3, View.ld_unit_zero (S := S1x1x512) hz3, View.ld_unit_zero (S := S1x1) hz2, View.ld_unit_zero (S := S16x1) hz2, View.ld_unit_zero (S := S16x1024) hz2]
  rfl

end Cert.Attention.Pieces

end
-- ==== Proof.LibRectCols.lean ====
/-
  Column bands of a matrix buffer, read at an index.

  A rectangle of a matrix buffer [a, b] that takes every row and the `d` columns from `o` on places its own index
  (r, k) at the buffer index (r, o + k) — both as a load reads it and as a store writes it. Generic in the extents.
-/
import Idealize.ShloMosaic.Lib.ValueIdx
import Idealize.ShloMosaic.Lib.Pipeline.Value

noncomputable section

namespace Cert.LibRectCols

open Idealize.ShloMosaic Idealize.ShloMosaic.ValueIdx

variable {a b d : Nat}

/-- A load through the column band `[o, o + d)` reads, at its index (r, k), the buffer's index (r, o + k). -/
theorem idx_cols (o : Nat) (hb : o + d ≤ b)
    (inb : ∀ ax, (![0, o] : Fin 2 → Nat) ax + (⟨2, ![a, d]⟩ : Shape).size ax ≤ (⟨2, ![a, b]⟩ : Shape).size ax)
    (r : Fin a) (k : Fin d) :
    (Rect.unit (s := ⟨2, ![a, b]⟩) ![0, o] (⟨2, ![a, d]⟩ : Shape).size inb).toLoadRect.idx (ix2 r k)
      = ix2 r ⟨o + k.val, by have := k.isLt; omega⟩ := by
  funext ax
  apply Fin.ext
  match ax with
  | ⟨0, _⟩ => show 0 + 1 * r.val = r.val; omega
  | ⟨1, _⟩ => show o + 1 * k.val = o + k.val; omega

/-- A store through the column band `[o, o + d)` writes its index (r, k) to the buffer's index (r, o + k). -/
theorem emb_cols (o : Nat) (hb : o + d ≤ b)
    (inb : ∀ ax, (![0, o] : Fin 2 → Nat) ax + (⟨2, ![a, d]⟩ : Shape).size ax ≤ (⟨2, ![a, b]⟩ : Shape).size ax)
    (r : Fin a) (k : Fin d) :
    (Rect.unit (s := ⟨2, ![a, b]⟩) ![0, o] (⟨2, ![a, d]⟩ : Shape).size inb).emb (ix2 r k)
      = ix2 r ⟨o + k.val, by have := k.isLt; omega⟩ :=
  idx_cols o hb inb r k

end Cert.LibRectCols

end
-- ==== Proof.RowStep.lean ====
/-
  One grid point's update of the four running quantities, row by row.

  Row r of the point's row block i0 is batch row b = 16·i0 + r, and the point's 128 steps are the time steps
  128·n … 128·n + 127. If before the point every row's four quantities are the streaming-softmax state of its first n
  blocks of logits (relative to some real level), and the point's input blocks are the blocks of the argument arrays
  that belong to it, then after the body they are the state of the first n + 1 blocks: the body's logits are the
  specification's logits of those rows and steps (the kernel adds the first bias to the decoder term, the reference to
  the encoder term: addition of extended reals is associative and commutative), and the update is the streaming
  update.
-/
import proofs.«177093_j35699768164501_2_alg».proof.Proof.Spec
import proofs.«177093_j35699768164501_2_alg».proof.Proof.Reference
import proofs.«177093_j35699768164501_2_alg».proof.Proof.OnlineSoftmax
import proofs.«177093_j35699768164501_2_alg».proof.Proof.KernelOps
import proofs.«177093_j35699768164501_2_alg».proof.Proof.Pieces
import proofs.«177093_j35699768164501_2_alg».proof.Proof.LibRectCols

noncomputable section

open scoped BigOperators

namespace Cert.Attention.RowStep

open Cert.KernelIdeal Cert.KernelIdeal.Gen Idealize.ShloMosaic Idealize.ShloMosaic.ValueIdx
open Cert.Attention Cert.Attention.Online Cert.Attention.Pieces Cert.Attention.KernelOps

variable {α : Type}

/-- Inside the band of columns a step's weights are stored to, the table holds the stored weights. -/
theorem band_in (off : Fin 2 → Nat) (o : Nat) (hoff : off = ![0, o]) (ho : o + 128 ≤ 1024)
    (inb : ∀ a, off a + S16x128.size a ≤ S16x1024.size a) (X : S16x1024.Idx → α) (w : S16x128.Idx → α)
    (r : Fin 16) (k : Fin 128) :
    (Rect.unit (s := S16x1024) off S16x128.size inb).overlay X w (ix2 r ⟨o + k.val, by have := k.isLt; omega⟩)
      = w (ix2 r k) := by
  subst hoff
  rw [← Cert.LibRectCols.emb_cols (a := 16) (b := 1024) (d := 128) o ho inb r k]
  exact Rect.overlay_emb (Rect.unit (s := S16x1024) ![0, o] S16x128.size inb) X w (ix2 r k)

/-- Outside that band it keeps what it held. -/
theorem band_out (off : Fin 2 → Nat) (o : Nat) (hoff : off = ![0, o])
    (inb : ∀ a, off a + S16x128.size a ≤ S16x1024.size a) (X : S16x1024.Idx → α) (w : S16x128.Idx → α)
    (r : Fin 16) (T : Fin 1024) (hT : ¬(o ≤ T.val ∧ T.val < o + 128)) :
    (Rect.unit (s := S16x1024) off S16x128.size inb).overlay X w (ix2 r T) = X (ix2 r T) := by
  subst hoff
  refine Rect.overlay_of_not_mem (Rect.unit (s := S16x1024) ![0, o] S16x128.size inb) X w ?_
  rw [Rect.mem_set_unit]
  intro h
  have h1 : o ≤ T.val ∧ T.val < o + 128 := h (1 : Fin 2)
  exact hT h1

/-- Batch row 16·i0 + r. -/
def row (i0 : ℕ) (hi : i0 < 4) (r : Fin 16) : Fin 64 := ⟨16 * i0 + r.val, by have := r.isLt; omega⟩

/-- Time step 128·n + k. -/
def stp (n : ℕ) (hn : n < 8) (k : Fin 128) : Fin 1024 := ⟨128 * n + k.val, by have := k.isLt; omega⟩

/-- Every row of row block i0 holds the streaming state of its first n blocks of 128 steps. -/
def RowsOK (A : Args) (i0 : ℕ) (hi : i0 < 4) (n : ℕ) (s0 s1 : Vec Ideal S16x1 .f32) (s2 : Vec Ideal S16x1x512 .f32)
    (s3 : Vec Ideal S16x1024 .f32) : Prop :=
  ∀ r : Fin 16, ∃ μ : ℝ, RowState (logitR A (row i0 hi r)) (encR A (row i0 hi r)) n μ
    (s0 (ix2 r (0 : Fin 1))) (s1 (ix2 r (0 : Fin 1))) (fun T => s3 (ix2 r T)) (fun f => s2 (ix3 r (0 : Fin 1) f))

/-- The body's logit of (r, k) is the specification's logit of (row, step). -/
theorem blockLogit_eq (A : Args) (hA : A.Finite) (i0 : ℕ) (hi : i0 < 4) (n : ℕ) (hn : n < 8)
    (x0 : Vec Ideal S16x128x512 .f32) (x1 : Vec Ideal S512x512 .bf16) (x2 : Vec Ideal S16x1x512 .f32)
    (x3 : Vec Ideal S1x1x512 .f32) (x4 : Vec Ideal S1x1 .f32)
    (h0 : ∀ (r : Fin 16) (k : Fin 128) (f : Fin 512), x0 (ix3 r k f) = A.enc (ix3 (row i0 hi r) (stp n hn k) f))
    (h1 : ∀ f u : Fin 512, x1 (ix2 f u) = A.W1 (ix2 f u))
    (h2 : ∀ (r : Fin 16) (u : Fin 512), x2 (ix3 r (0 : Fin 1) u) = projDec A (row i0 hi r) u + A.b1 (ix1 u))
    (h3 : ∀ u : Fin 512, x3 (ix3 (0 : Fin 1) (0 : Fin 1) u) = A.V (ix2 u (0 : Fin 1)))
    (h4 : x4 (ix2 (0 : Fin 1) (0 : Fin 1)) = A.bV (ix1 (0 : Fin 1))) (r : Fin 16) (k : Fin 128) :
    blockLogit x0 x1 x2 x3 x4 r k = ((logitR A (row i0 hi r) (stp n hn k) : ℝ) : EReal) := by
  rw [← Cert.Attention.Reference.logit_eq A hA]
  unfold blockLogit logit projEnc
  rw [h4]
  refine congrArg (· + _) (Finset.sum_congr rfl fun u _ => ?_)
  rw [h3, h2]
  refine congrArg (fun z => Ideal.tanh z * _) ?_
  rw [Finset.sum_congr rfl fun f _ => by rw [h0 r k f, h1 f u]]
  rw [add_assoc, add_comm (A.b1 (ix1 u))]

/-- ONE POINT, ALL ROWS: the body turns the streaming state of n blocks into that of n + 1 blocks. -/
theorem rows_step (A : Args) (hA : A.Finite) (i0 : ℕ) (hi : i0 < 4) (n : ℕ) (hn : n < 8) (i : grid0.Coords)
    (hoff : k0_off1 i = ![0, 128 * n])
    (x0 : Vec Ideal S16x128x512 .f32) (x1 : Vec Ideal S512x512 .bf16) (x2 : Vec Ideal S16x1x512 .f32)
    (x3 : Vec Ideal S1x1x512 .f32) (x4 : Vec Ideal S1x1 .f32)
    (h0 : ∀ (r : Fin 16) (k : Fin 128) (f : Fin 512), x0 (ix3 r k f) = A.enc (ix3 (row i0 hi r) (stp n hn k) f))
    (h1 : ∀ f u : Fin 512, x1 (ix2 f u) = A.W1 (ix2 f u))
    (h2 : ∀ (r : Fin 16) (u : Fin 512), x2 (ix3 r (0 : Fin 1) u) = projDec A (row i0 hi r) u + A.b1 (ix1 u))
    (h3 : ∀ u : Fin 512, x3 (ix3 (0 : Fin 1) (0 : Fin 1) u) = A.V (ix2 u (0 : Fin 1)))
    (h4 : x4 (ix2 (0 : Fin 1) (0 : Fin 1)) = A.bV (ix1 (0 : Fin 1)))
    (s0 s1 : Vec Ideal S16x1 .f32) (s2 : Vec Ideal S16x1x512 .f32) (s3 : Vec Ideal S16x1024 .f32)
    (hS : RowsOK A i0 hi n s0 s1 s2 s3) :
    RowsOK A i0 hi (n + 1) (upd0 x0 x1 x2 x3 x4 s0) (upd1 x0 x1 x2 x3 x4 s0 s1) (upd2 x0 x1 x2 x3 x4 s0 s2)
      (upd3 i x0 x1 x2 x3 x4 s0 s3) := by
  intro r
  obtain ⟨μ, hst⟩ := hS r
  have hm : upd0 x0 x1 x2 x3 x4 s0 (ix2 r (0 : Fin 1))
      = k0_pay9 (F := Ideal) x0 x1 x2 x3 x4 s0 (ix2 r (0 : Fin 1)) := by
    unfold upd0; rw [pay16_eq]
  refine Online.step hst hn (fun k => blockLogit x0 x1 x2 x3 x4 r k) (fun k f => x0 (ix3 r k f))
    (fun k => blockLogit_eq A hA i0 hi n hn x0 x1 x2 x3 x4 h0 h1 h2 h3 h4 r k)
    (fun k f => ?hxt) _ _ _ _ ?hm' ?hl' ?hp_in ?hp_out ?hc'
  case hxt =>
    (try dsimp only)
    rw [h0 r k f]
    exact ((hA.enc _).coe_toReal).symm
  case hm' =>
    rw [hm, pay9_apply]
    rfl
  case hl' =>
    rw [hm]
    unfold upd1
    rw [pay17_apply, pay12_apply, pay10_apply]
    exact congrArg (_ + ·) (Finset.sum_congr rfl fun k _ => pay11_apply x0 x1 x2 x3 x4 s0 r k)
  case hp_in =>
    intro k
    (try dsimp only)
    rw [hm]
    unfold upd3
    rw [band_in (k0_off1 i) (128 * n) hoff (by omega) (k0_off1_inb i) _ _ r k, pay14_eq, pay11_apply]
  case hp_out =>
    intro T hT
    (try dsimp only)
    rw [hm]
    unfold upd3
    rw [band_out (k0_off1 i) (128 * n) hoff (k0_off1_inb i) _ _ r T hT, pay13_apply, pay10_apply]
  case hc' =>
    intro f
    (try dsimp only)
    rw [hm]
    unfold upd2
    rw [pay15_apply, pay10_apply]
    exact congrArg (_ + ·) (Finset.sum_congr rfl fun k _ => by rw [pay11_apply])

end Cert.Attention.RowStep

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«177093_j35699768164501_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibHostAffine.lean ====
/-
  An affine layer of a host program read at an entry, over the extended reals.

  The layer is  x ↦ x·W + b  on every row of an M×K array: the host's matrix product with plain dimension numbers,
  plus the bias vector [N] placed as the row [1, N] and spread over the M rows. At row `p` and column `q` it is
    Σ_{k < K} x(p, k) · W(k, q)  +  b(q).
  Generic in M, K, N; the two broadcasts' axis maps are passed with their values, the product's dimension numbers as
  any record equal to the plain ones.
-/
import proofs.«177093_j35699768164501_2_alg».proof.Proof.LibDotGeneralPlain
import proofs.«177093_j35699768164501_2_alg».proof.Proof.LibHostBroadcast

noncomputable section

open scoped BigOperators

namespace Cert.LibHostAffine

open Idealize.ShloMosaic Idealize.ShloMosaic.ValueIdx

variable {M K N : Nat}

/-- THE AFFINE LAYER AT AN ENTRY: the product's entry plus the bias's. -/
theorem affine_apply (D : DotDims ⟨2, ![M, K]⟩ ⟨2, ![K, N]⟩ ⟨2, ![M, N]⟩) (hD : D = DotDims.plain M K N)
    (prec : Option ContractPrecision)
    (d1 : Fin (⟨1, ![N]⟩ : Shape).rank → Fin (⟨2, ![1, N]⟩ : Shape).rank)
    (hd1 : d1 ⟨0, Nat.one_pos⟩ = ⟨1, Nat.lt_succ_self 1⟩)
    (h1 : (⟨1, ![N]⟩ : Shape).BroadcastsInDim ⟨2, ![1, N]⟩ d1)
    (d2 : Fin (⟨2, ![1, N]⟩ : Shape).rank → Fin (⟨2, ![M, N]⟩ : Shape).rank)
    (hd2 : d2 ⟨1, Nat.lt_succ_self 1⟩ = ⟨1, Nat.lt_succ_self 1⟩)
    (h2 : (⟨2, ![1, N]⟩ : Shape).BroadcastsInDim ⟨2, ![M, N]⟩ d2)
    (x : FVec Ideal ⟨2, ![M, K]⟩ .f32) (w : FVec Ideal ⟨2, ![K, N]⟩ .f32) (b : FVec Ideal ⟨1, ![N]⟩ .f32)
    (p : Fin M) (q : Fin N) :
    addf (Host.dotGeneral D prec x w)
        (broadcastInDim ⟨2, ![M, N]⟩ d2 h2 (broadcastInDim ⟨2, ![1, N]⟩ d1 h1 b)) (ix2 p q)
      = (∑ k : Fin K, x (ix2 p k) * w (ix2 k q)) + b (ix1 q) := by
  show FloatOps.dotGeneral D prec .single x w (ix2 p q)
      + broadcastInDim ⟨2, ![M, N]⟩ d2 h2 (broadcastInDim ⟨2, ![1, N]⟩ d1 h1 b) (ix2 p q) = _
  rw [Cert.LibDotGeneralPlain.dotGeneral_plain_apply D hD, Cert.LibHostBroadcast.bcast_1b_ab_apply d2 hd2 h2,
    Cert.LibHostBroadcast.bcast_b_1b_apply d1 hd1 h1]

end Cert.LibHostAffine

end
-- ==== Proof.KernelBlocks.lean ====
/-
  The kernel program's input blocks, entry by entry.

  Before the kernel runs, the host forms three arrays from the arguments: the decoder projection with both biases,
      (Σ_d dec(b,d)·W2(d,u) + b2(u)) + b1(u),
  kept as [64,1,512]; the scoring vector V kept as [1,1,512]; its bias kept as [1,1]; and W1 with its format changed,
  which over the extended reals changes nothing. The kernel's grid has 32 points; point t works on the batch rows
  16·(t / 8) … 16·(t / 8) + 15 and the time steps 128·(t mod 8) … 128·(t mod 8) + 127. Its five input blocks are
  restrictions of those arrays: block 0 the encoder rows and time steps of the point, block 2 the projection rows of the
  point, blocks 1, 3 and 4 the whole of W1, V and the scoring bias.
-/
import proofs.«177093_j35699768164501_2_alg».proof.Proof.Spec
import proofs.«177093_j35699768164501_2_alg».proof.Proof.Finite
import proofs.«177093_j35699768164501_2_alg».proof.Proof.Gen.KernelIdeal.Frame
import proofs.«177093_j35699768164501_2_alg».proof.Proof.LibHostAffine
import proofs.«177093_j35699768164501_2_alg».proof.Proof.LibHostBroadcast
import proofs.«177093_j35699768164501_2_alg».proof.Proof.LibRows
import Idealize.ShloMosaic.Lib.StableHlo.Run
import Idealize.ShloMosaic.Lib.Pipeline.Value
import Idealize.ShloMosaic.Lib.Tactic

noncomputable section

open scoped BigOperators

namespace Cert.Attention.KernelBlocks

open Idealize.ShloMosaic Idealize.ShloMosaic.TcCoe Idealize.ShloMosaic.ValueIdx Idealize.SL.Sem Idealize.ShloMosaic.StableHlo
open Cert.KernelIdeal Cert.KernelIdeal.Gen Cert.Attention Cert.Attention.Finite

variable (m : (ℓ : Loc nD τ sig) → Buf (Elt Ideal) ℓ) (c : Dev nD)

/-! ## The rows and time steps of a grid point -/

/-- The batch row of row r of the blocks of grid point t. -/
def row (t : Fin cfg0.N) (r : Fin 16) : Fin 64 :=
  ⟨16 * (t.val / 8) + r.val, by have ht : t.val < 32 := lt_of_lt_of_eq t.isLt N_0; have := r.isLt; omega⟩

/-- The time step of step k of the encoder block of grid point t. -/
def step (t : Fin cfg0.N) (k : Fin 128) : Fin 1024 :=
  ⟨128 * (t.val % 8) + k.val, by have := k.isLt; omega⟩

theorem row_val (t : Fin cfg0.N) (r : Fin 16) : (row t r).val = 16 * (t.val / 8) + r.val := rfl
theorem step_val (t : Fin cfg0.N) (k : Fin 128) : (step t k).val = 128 * (t.val % 8) + k.val := rfl

/-! ## The block indices, decided over the grid -/

theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 3) = t.val / 8 ∧ win0_2.index t (1 : Fin 3) = 0
    ∧ win0_2.index t (2 : Fin 3) = 0 :=
  (by decide +kernel : ∀ t : Fin grid0.N, _)

theorem idx3 : ∀ t : Fin cfg0.N, win0_3.index t (0 : Fin 3) = 0 ∧ win0_3.index t (1 : Fin 3) = 0
    ∧ win0_3.index t (2 : Fin 3) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

/-! ## Block 0: the encoder rows and time steps of the point -/

theorem blk0_apply (t : Fin cfg0.N) (r : Fin 16) (k : Fin 128) (f : Fin 512) :
    Gen.iblk m c 0 t (ix3 r k f) = (argsOf m c).enc (ix3 (row t r) (step t k) f) := by
  obtain ⟨e0, e1, e2⟩ := idx0 t
  unfold Gen.iblk
  rw [View.read_apply]
  show Gen.V m c main_arg0 (((cfg0.win 0).blk t).view.emb (ix3 r k f))
    = m ((c.tc : Thread nD τ).loc main_arg0) (ix3 (row t r) (step t k) f)
  rw [Gen.V_main_arg0]
  refine congrArg _ (funext fun a => Fin.ext ?_)
  match a with
  | ⟨0, _⟩ => show win0_0.index t (0 : Fin 3) * 16 + 1 * r.val = 16 * (t.val / 8) + r.val; rw [e0]; omega
  | ⟨1, _⟩ => show win0_0.index t (1 : Fin 3) * 128 + 1 * k.val = 128 * (t.val % 8) + k.val; rw [e1]; omega
  | ⟨2, _⟩ => show win0_0.index t (2 : Fin 3) * 512 + 1 * f.val = f.val; rw [e2]; omega

/-! ## Block 1: W1, its format changed -/

/-- The array the kernel reads W1 from holds W1. -/
theorem entry_v10 : (Gen.V m c main_v10 : S512x512.Idx → EReal) = (argsOf m c).W1 := by
  show StableHlo.after Gen.hostOps0 (fun b => m (c, b)) (Proc.devRef .tc main_v10) = _
  after_results
  rfl

theorem blk1_apply (t : Fin cfg0.N) (f u : Fin 512) :
    Gen.iblk m c 1 t (ix2 f u) = (argsOf m c).W1 (ix2 f u) := by
  obtain ⟨e0, e1⟩ := idx1 t
  unfold Gen.iblk
  rw [View.read_apply]
  show (Gen.V m c main_v10 : S512x512.Idx → EReal) (((cfg0.win 1).blk t).view.emb (ix2 f u)) = _
  rw [entry_v10]
  refine congrArg _ (funext fun a => Fin.ext ?_)
  match a with
  | ⟨0, _⟩ => show win0_1.index t (0 : Fin 2) * 512 + 1 * f.val = f.val; rw [e0]; omega
  | ⟨1, _⟩ => show win0_1.index t (1 : Fin 2) * 512 + 1 * u.val = u.val; rw [e1]; omega

/-! ## Block 2: the decoder projection rows of the point, with both biases -/

/-- The projection array at (p, 0, u): the decoder projection with its bias, plus the encoder projection's bias. -/
theorem entry_v7 (p : Fin 64) (z : Fin 1) (u : Fin 512) :
    (Gen.V m c main_v7 : S64x1x512.Idx → EReal) (ix3 p z u)
      = projDec (argsOf m c) p u + (argsOf m c).b1 (ix1 u) := by
  have e : (Gen.V m c main_v7 : S64x1x512.Idx → EReal) = shapeCast S64x1x512
      (addf (addf (Host.dotGeneral (F := Ideal) (φ₁ := .f32) (φ₂ := .f32) dot_S64x512_S512x512_S64x512_1_0_0_1_n_n none (argsOf m c).dec (argsOf m c).W2)
          (broadcastInDim S64x512 ![0, 1] bcast_S1x512_S64x512_0_1 (broadcastInDim S1x512 ![1] bcast_S512_S1x512_1 (argsOf m c).b2)))
        (broadcastInDim S64x512 ![0, 1] bcast_S1x512_S64x512_0_1 (broadcastInDim S1x512 ![1] bcast_S512_S1x512_1 (argsOf m c).b1)))
      shapeCasts_S64x512_S64x1x512 := by
    show StableHlo.after Gen.hostOps0 (fun b => m (c, b)) (Proc.devRef .tc main_v7) = _
    after_results
    rfl
  rw [e, Cert.LibRows.insert_mid_apply, addf_apply,
    Cert.LibHostAffine.affine_apply dot_S64x512_S512x512_S64x512_1_0_0_1_n_n rfl none ![1] rfl bcast_S512_S1x512_1 ![0, 1] rfl
      bcast_S1x512_S64x512_0_1,
    Cert.LibHostBroadcast.bcast_1b_ab_apply ![0, 1] rfl bcast_S1x512_S64x512_0_1,
    Cert.LibHostBroadcast.bcast_b_1b_apply ![1] rfl bcast_S512_S1x512_1]
  rfl

theorem blk2_apply (t : Fin cfg0.N) (r : Fin 16) (z : Fin 1) (u : Fin 512) :
    Gen.iblk m c 2 t (ix3 r z u) = projDec (argsOf m c) (row t r) u + (argsOf m c).b1 (ix1 u) := by
  obtain ⟨e0, e1, e2⟩ := idx2 t
  unfold Gen.iblk
  rw [View.read_apply, ← entry_v7 m c (row t r) z u]
  show (Gen.V m c main_v7 : S64x1x512.Idx → EReal) (((cfg0.win 2).blk t).view.emb (ix3 r z u)) = _
  refine congrArg _ (funext fun a => Fin.ext ?_)
  match a with
  | ⟨0, _⟩ => show win0_2.index t (0 : Fin 3) * 16 + 1 * r.val = 16 * (t.val / 8) + r.val; rw [e0]; omega
  | ⟨1, _⟩ => show win0_2.index t (1 : Fin 3) * 1 + 1 * z.val = z.val; rw [e1]; omega
  | ⟨2, _⟩ => show win0_2.index t (2 : Fin 3) * 512 + 1 * u.val = u.val; rw [e2]; omega

/-! ## Block 3: the scoring vector as a row -/

/-- The scoring array at (0, 0, u) is V(u, 0). -/
theorem entry_v8 (z z' : Fin 1) (u : Fin 512) :
    (Gen.V m c main_v8 : S1x1x512.Idx → EReal) (ix3 z z' u) = (argsOf m c).V (ix2 u (0 : Fin 1)) := by
  have e : (Gen.V m c main_v8 : S1x1x512.Idx → EReal)
      = shapeCast S1x1x512 (argsOf m c).V shapeCasts_S512x1_S1x1x512 := by
    show StableHlo.after Gen.hostOps0 (fun b => m (c, b)) (Proc.devRef .tc main_v8) = _
    after_results
    rfl
  rw [e]
  exact shapeCast_apply _ _ _ _ (by
    rw [Shape.rowMajor_val_two, Shape.rowMajor_val_three]
    show u.val * 1 + 0 = (z.val * 1 + z'.val) * 512 + u.val
    omega)

theorem blk3_apply (t : Fin cfg0.N) (z z' : Fin 1) (u : Fin 512) :
    Gen.iblk m c 3 t (ix3 z z' u) = (argsOf m c).V (ix2 u (0 : Fin 1)) := by
  obtain ⟨e0, e1, e2⟩ := idx3 t
  unfold Gen.iblk
  rw [View.read_apply, ← entry_v8 m c z z' u]
  show (Gen.V m c main_v8 : S1x1x512.Idx → EReal) (((cfg0.win 3).blk t).view.emb (ix3 z z' u)) = _
  refine congrArg _ (funext fun a => Fin.ext ?_)
  match a with
  | ⟨0, _⟩ => show win0_3.index t (0 : Fin 3) * 1 + 1 * z.val = z.val; rw [e0]; omega
  | ⟨1, _⟩ => show win0_3.index t (1 : Fin 3) * 1 + 1 * z'.val = z'.val; rw [e1]; omega
  | ⟨2, _⟩ => show win0_3.index t (2 : Fin 3) * 512 + 1 * u.val = u.val; rw [e2]; omega

/-! ## Block 4: the scoring bias -/

/-- The scoring-bias array at (0, 0) is the bias. -/
theorem entry_v9 (z z' : Fin 1) :
    (Gen.V m c main_v9 : S1x1.Idx → EReal) (ix2 z z') = (argsOf m c).bV (ix1 (0 : Fin 1)) := by
  have e : (Gen.V m c main_v9 : S1x1.Idx → EReal) = shapeCast S1x1 (argsOf m c).bV shapeCasts_S1_S1x1 := by
    show StableHlo.after Gen.hostOps0 (fun b => m (c, b)) (Proc.devRef .tc main_v9) = _
    after_results
    rfl
  obtain rfl : z = 0 := Subsingleton.elim _ _
  rw [e, Cert.LibRows.col_cast_apply]

theorem blk4_apply (t : Fin cfg0.N) (z z' : Fin 1) :
    Gen.iblk m c 4 t (ix2 z z') = (argsOf m c).bV (ix1 (0 : Fin 1)) := by
  obtain ⟨e0, e1⟩ := idx4 t
  unfold Gen.iblk
  rw [View.read_apply, ← entry_v9 m c z z']
  show (Gen.V m c main_v9 : S1x1.Idx → EReal) (((cfg0.win 4).blk t).view.emb (ix2 z z')) = _
  refine congrArg _ (funext fun a => Fin.ext ?_)
  match a with
  | ⟨0, _⟩ => show win0_4.index t (0 : Fin 2) * 1 + 1 * z.val = z.val; rw [e0]; omega
  | ⟨1, _⟩ => show win0_4.index t (1 : Fin 2) * 1 + 1 * z'.val = z'.val; rw [e1]; omega

end Cert.Attention.KernelBlocks

end
-- ==== Proof.KernelInvariant.lean ====
/-
  The four running quantities after every grid point, and the two output blocks at a row block's last point.

  The 32 grid points are visited in order; point t works on row block t / 8 and on time block t % 8. By induction on
  the point, after point t every row of its row block holds the streaming-softmax state of its first t % 8 + 1 time
  blocks: a row block's first point starts from the reset buffers (the state of no blocks), every other point from what
  the point before left. At a row block's last point all 1024 time steps have been absorbed, and the two output
  blocks — the weighted sum and the weight table times the reciprocal normaliser — are the specification's context
  vectors and attention weights of the block's 16 batch rows.
-/
import proofs.«177093_j35699768164501_2_alg».proof.Proof.Spec
import proofs.«177093_j35699768164501_2_alg».proof.Proof.Finite
import proofs.«177093_j35699768164501_2_alg».proof.Proof.OnlineSoftmax
import proofs.«177093_j35699768164501_2_alg».proof.Proof.KernelOps
import proofs.«177093_j35699768164501_2_alg».proof.Proof.Pieces
import proofs.«177093_j35699768164501_2_alg».proof.Proof.RowStep
import proofs.«177093_j35699768164501_2_alg».proof.Proof.KernelBlocks
import proofs.«177093_j35699768164501_2_alg».proof.Proof.Gen.KernelIdeal.Frame

set_option maxRecDepth 16384

noncomputable section

open scoped BigOperators

namespace Cert.Attention.Invariant

open Cert.KernelIdeal Cert.KernelIdeal.Gen Idealize.ShloMosaic Idealize.ShloMosaic.ValueIdx
open Cert.Attention Cert.Attention.Finite Cert.Attention.Online Cert.Attention.Pieces Cert.Attention.KernelOps
open Cert.Attention.RowStep Cert.Attention.KernelBlocks

variable (m : (ℓ : Loc nD τ sig) → Buf (Elt Ideal) ℓ) (c : Dev nD)

/-- The band of table columns point t stores to starts at column 128·(t % 8). -/
theorem off_eq : ∀ t : Fin cfg0.N, k0_off1 (grid0.coords t) = ![0, 128 * (t.val % 8)] :=
  (by decide +kernel : ∀ t : Fin grid0.N, k0_off1 (grid0.coords t) = ![0, 128 * (t.val % 8)])

theorem blockOf_lt (t : Fin cfg0.N) : t.val / 8 < 4 := by
  have := t.isLt
  have hN : cfg0.N = 32 := N_0
  omega

theorem RowsOK.cast {A : Args} {i0 i0' n n' : ℕ} {hi : i0 < 4} (hi' : i0' < 4) (e : i0 = i0') (en : n = n')
    {s0 s1 : Vec Ideal S16x1 .f32} {s2 : Vec Ideal S16x1x512 .f32} {s3 : Vec Ideal S16x1024 .f32}
    (h : RowsOK A i0 hi n s0 s1 s2 s3) : RowsOK A i0' hi' n' s0 s1 s2 s3 := by
  subst e; subst en; exact h

/-- The reset buffers are the state of no blocks, relative to the very negative starting level. -/
theorem init_rows (A : Args) (i0 : ℕ) (hi : i0 < 4) :
    RowsOK A i0 hi 0 (k0_pay4 (F := Ideal)) (k0_pay5 (F := Ideal)) (k0_pay6 (F := Ideal)) (k0_pay7 (F := Ideal)) := by
  intro r
  obtain ⟨m0, hm0⟩ := Online.word_start_real
  refine ⟨m0, ?_⟩
  have h := Online.init (logitR A (row i0 hi r)) (encR A (row i0 hi r)) m0
  rw [show k0_pay4 (F := Ideal) (ix2 r (0 : Fin 1)) = (m0 : EReal) from (pay4_apply _).trans hm0,
    show k0_pay5 (F := Ideal) (ix2 r (0 : Fin 1)) = 0 from (pay5_apply _).trans Online.word_zero,
    show (fun T : Fin 1024 => k0_pay7 (F := Ideal) (ix2 r T)) = fun _ => 0 from
      funext fun T => (pay7_apply _).trans Online.word_zero,
    show (fun f : Fin 512 => k0_pay6 (F := Ideal) (ix3 r (0 : Fin 1) f)) = fun _ => 0 from
      funext fun f => (pay6_apply _).trans Online.word_zero]
  exact h

/-- A row block's first point. -/
theorem first_point (hA : (argsOf m c).Finite) (t : Fin cfg0.N) (h0 : t.val % 8 = 0) (h1 : ¬t.val % 8 = 7) :
    RowsOK (argsOf m c) (t.val / 8) (blockOf_lt t) (t.val % 8 + 1) (outsAt0 m c t.val t.isLt).2.2.1 (outsAt0 m c t.val t.isLt).2.2.2.1 (outsAt0 m c t.val t.isLt).2.2.2.2.1 (outsAt0 m c t.val t.isLt).2.2.2.2.2 := by
  rw [outsAt0_A m c t h0 h1]
  dsimp only
  rw [first_max, first_norm, first_ctx, first_tab]
  exact rows_step (argsOf m c) hA (t.val / 8) (blockOf_lt t) (t.val % 8) (Nat.mod_lt _ (by decide)) (grid0.coords t)
    (off_eq t) (iblk m c 0 t) (iblk m c 1 t) (iblk m c 2 t) (iblk m c 3 t) (iblk m c 4 t)
    (fun r k f => blk0_apply m c t r k f) (fun f u => blk1_apply m c t f u) (fun r u => blk2_apply m c t r (0 : Fin 1) u)
    (fun u => blk3_apply m c t (0 : Fin 1) (0 : Fin 1) u) (blk4_apply m c t (0 : Fin 1) (0 : Fin 1))
    (k0_pay4 (F := Ideal)) (k0_pay5 (F := Ideal)) (k0_pay6 (F := Ideal)) (k0_pay7 (F := Ideal))
    (RowsOK.cast (blockOf_lt t) rfl h0.symm (init_rows (argsOf m c) (t.val / 8) (blockOf_lt t)))

/-- A middle point, from the point before. -/
theorem mid_point (hA : (argsOf m c).Finite) (t : Fin cfg0.N) (h0 : ¬t.val % 8 = 0) (h1 : ¬t.val % 8 = 7)
    (prev : RowsOK (argsOf m c) (t.val / 8) (blockOf_lt t) (t.val % 8)
      (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) :
    RowsOK (argsOf m c) (t.val / 8) (blockOf_lt t) (t.val % 8 + 1) (outsAt0 m c t.val t.isLt).2.2.1 (outsAt0 m c t.val t.isLt).2.2.2.1 (outsAt0 m c t.val t.isLt).2.2.2.2.1 (outsAt0 m c t.val t.isLt).2.2.2.2.2 := by
  rw [outsAt0_B m c t h0 h1]
  dsimp only
  rw [mid_max, mid_norm, mid_ctx, mid_tab]
  exact rows_step (argsOf m c) hA (t.val / 8) (blockOf_lt t) (t.val % 8) (Nat.mod_lt _ (by decide)) (grid0.coords t)
    (off_eq t) (iblk m c 0 t) (iblk m c 1 t) (iblk m c 2 t) (iblk m c 3 t) (iblk m c 4 t)
    (fun r k f => blk0_apply m c t r k f) (fun f u => blk1_apply m c t f u) (fun r u => blk2_apply m c t r (0 : Fin 1) u)
    (fun u => blk3_apply m c t (0 : Fin 1) (0 : Fin 1) u) (blk4_apply m c t (0 : Fin 1) (0 : Fin 1))
    _ _ _ _ prev

/-- A row block's last point, from the point before. -/
theorem last_point (hA : (argsOf m c).Finite) (t : Fin cfg0.N) (h0 : ¬t.val % 8 = 0) (h1 : t.val % 8 = 7)
    (prev : RowsOK (argsOf m c) (t.val / 8) (blockOf_lt t) (t.val % 8)
      (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) :
    RowsOK (argsOf m c) (t.val / 8) (blockOf_lt t) (t.val % 8 + 1) (outsAt0 m c t.val t.isLt).2.2.1 (outsAt0 m c t.val t.isLt).2.2.2.1 (outsAt0 m c t.val t.isLt).2.2.2.2.1 (outsAt0 m c t.val t.isLt).2.2.2.2.2 := by
  rw [outsAt0_C m c t h0 h1]
  dsimp only
  rw [last_max, last_norm, last_ctx, last_tab]
  exact rows_step (argsOf m c) hA (t.val / 8) (blockOf_lt t) (t.val % 8) (Nat.mod_lt _ (by decide)) (grid0.coords t)
    (off_eq t) (iblk m c 0 t) (iblk m c 1 t) (iblk m c 2 t) (iblk m c 3 t) (iblk m c 4 t)
    (fun r k f => blk0_apply m c t r k f) (fun f u => blk1_apply m c t f u) (fun r u => blk2_apply m c t r (0 : Fin 1) u)
    (fun u => blk3_apply m c t (0 : Fin 1) (0 : Fin 1) u) (blk4_apply m c t (0 : Fin 1) (0 : Fin 1))
    _ _ _ _ prev

/-- AFTER EVERY POINT every row of the point's row block holds the state of its first t % 8 + 1 time blocks. -/
theorem inv (hA : (argsOf m c).Finite) : ∀ (tv : ℕ) (ht : tv < cfg0.N),
    RowsOK (argsOf m c) (tv / 8) (blockOf_lt ⟨tv, ht⟩) (tv % 8 + 1) (outsAt0 m c tv ht).2.2.1 (outsAt0 m c tv ht).2.2.2.1 (outsAt0 m c tv ht).2.2.2.2.1 (outsAt0 m c tv ht).2.2.2.2.2 := by
  intro tv
  induction tv with
  | zero => intro ht; exact first_point m c hA ⟨0, ht⟩ rfl (by show ¬(0 % 8 = 7); decide)
  | succ n ih =>
    intro ht
    have hN : cfg0.N = 32 := N_0
    by_cases h0 : (n + 1) % 8 = 0
    · exact first_point m c hA ⟨n + 1, ht⟩ h0 (by show ¬((n + 1) % 8 = 7); omega)
    · have prev := RowsOK.cast (blockOf_lt ⟨n + 1, ht⟩) (show n / 8 = (n + 1) / 8 by omega)
        (show n % 8 + 1 = (n + 1) % 8 by omega) (ih (by omega))
      by_cases h1 : (n + 1) % 8 = 7
      · exact last_point m c hA ⟨n + 1, ht⟩ h0 h1 prev
      · exact mid_point m c hA ⟨n + 1, ht⟩ h0 h1 prev

/-- At a row block's last point the context block is the weighted sum over the normaliser, -/
theorem comp_ctx (t : Fin cfg0.N) (h0 : ¬t.val % 8 = 0) (h1 : t.val % 8 = 7) :
    (outsAt0 m c t.val t.isLt).1
      = k0_pay2 (F := Ideal) (outsAt0 m c t.val t.isLt).2.2.2.1 (outsAt0 m c t.val t.isLt).2.2.2.2.1 := by
  rw [outsAt0_C m c t h0 h1]
  dsimp only
  rw [last_out_ctx, last_norm, last_ctx]

/-- and the attention block the weight table over the normaliser. -/
theorem comp_attn (t : Fin cfg0.N) (h0 : ¬t.val % 8 = 0) (h1 : t.val % 8 = 7) :
    (outsAt0 m c t.val t.isLt).2.1
      = k0_pay3 (F := Ideal) (outsAt0 m c t.val t.isLt).2.2.2.1 (outsAt0 m c t.val t.isLt).2.2.2.2.2 := by
  rw [outsAt0_C m c t h0 h1]
  dsimp only
  rw [last_out_attn, last_norm, last_tab]

/-- The context block written back at a row block's last point is the specification's. -/
theorem out_ctx (hA : (argsOf m c).Finite) (t : Fin cfg0.N) (h7 : t.val % 8 = 7) (r : Fin 16) (z : Fin 1) (f : Fin 512) :
    (outsAt0 m c t.val t.isLt).1 (ix3 r z f) = context (argsOf m c) (ix2 (RowStep.row (t.val / 8) (blockOf_lt t) r) f) := by
  obtain rfl : z = 0 := Subsingleton.elim _ _
  obtain ⟨μ, hst⟩ := RowsOK.cast (blockOf_lt t) rfl (show t.val % 8 + 1 = 8 by omega) (inv m c hA t.val t.isLt) r
  rw [comp_ctx m c t (by omega) h7, pay2_apply, pay1_apply]
  exact Online.final_ctx hst f

/-- The attention block written back at a row block's last point is the specification's. -/
theorem out_attn (hA : (argsOf m c).Finite) (t : Fin cfg0.N) (h7 : t.val % 8 = 7) (r : Fin 16) (T : Fin 1024) :
    (outsAt0 m c t.val t.isLt).2.1 (ix2 r T) = attn (argsOf m c) (ix2 (RowStep.row (t.val / 8) (blockOf_lt t) r) T) := by
  obtain ⟨μ, hst⟩ := RowsOK.cast (blockOf_lt t) rfl (show t.val % 8 + 1 = 8 by omega) (inv m c hA t.val t.isLt) r
  rw [comp_attn m c t (by omega) h7, pay3_apply, pay1_apply]
  exact Online.final_attn hst T

end Cert.Attention.Invariant

end
-- ==== Proof.KernelTail.lean ====
/-
  From the row blocks to the result arrays. The grid has 32 points, t ↦ (t / 8, t % 8): four blocks of 16 batch rows,
  eight steps each. Each of the two output windows is written back at the last step of a row block (t % 8 = 7), and its
  block at point t is rows 16·(t / 8) … 16·(t / 8) + 15 of the array. The four written blocks tile the 64 rows, so when
  what the last step of each row block leaves in an output's staging buffer is the matching 16 rows of one function G
  of the whole array, the array ends holding G. After the region one more line squeezes the [64,1,512] array to
  [64,512]: the first result is that squeeze of the first array, the second result is the second array, and the
  eight arguments are unchanged.
-/
import proofs.«177093_j35699768164501_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.Attention.KernelTail

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (m : (ℓ : Loc nD τ sig) → Buf (Elt F) ℓ) (ρ : Dev nD → PrngReg)

/-- The squeeze [64,1,512] → [64,512] read at (b, f) is the array at (b, 0, f). -/
theorem squeeze_apply {α : Type} (X : S64x1x512.Idx → α) (b : Fin 64) (f : Fin 512) :
    shapeCast S64x512 X shapeCasts_S64x1x512_S64x512 (ix2 b f) = X (ix3 b (0 : Fin 1) f) := by
  refine shapeCast_apply X _ (ix2 b f) (ix3 b (0 : Fin 1) f) ?_
  rw [Shape.rowMajor_val_two, Shape.rowMajor_val_three]
  show (b.val * 1 + 0) * 512 + f.val = b.val * 512 + f.val
  omega

/-- The index maps of the two output windows over the grid: row block t / 8, nothing else moves. -/
theorem idx_facts : ∀ t : Fin cfg0.N,
    win0_5.index t (0 : Fin 3) = t.val / 8 ∧ win0_5.index t (1 : Fin 3) = 0 ∧ win0_5.index t (2 : Fin 3) = 0
    ∧ win0_6.index t (0 : Fin 2) = t.val / 8 ∧ win0_6.index t (1 : Fin 2) = 0 :=
  (by decide +kernel : ∀ t : Fin grid0.N, _)

/-! ## The attention weights' array (output window 6) -/

/-- An index of the [64,1024] array is in point t's block iff each coordinate is in the block's range on its axis. -/
theorem mem_blk6 (t : Fin cfg0.N) (i : S64x1024.Idx) :
    i ∈ ((cfg0.win 6).blk t).view.set ↔ ∀ a : Fin 2, win0_6.index t a * S16x1024.size a ≤ (i a).val ∧ (i a).val < win0_6.index t a * S16x1024.size a + S16x1024.size a := by
  show i ∈ ((View.whole main_v11_1).slice (win0_6.rect t)).set ↔ _
  rw [View.set_slice_whole, Rect.mem_set_unit]
  exact Iff.rfl

/-- Row i₀ of the [64,1024] array is written back at the last step of row block i₀ / 16. -/
theorem cover6 (i : S64x1024.Idx) : ∃ t : Fin cfg0.N, (cfg0.win 6).flush t = true ∧ i ∈ ((cfg0.win 6).blk t).view.set := by
  have hN : cfg0.N = 32 := N_0
  have hi0 : (i 0).val < 64 := (i 0).isLt
  have hi1 : (i 1).val < 1024 := (i 1).isLt
  obtain ⟨t, htv⟩ : ∃ t : Fin cfg0.N, t.val = 8 * ((i 0).val / 16) + 7 := ⟨⟨_, by omega⟩, rfl⟩
  obtain ⟨-, -, -, e0, e1⟩ := idx_facts t
  refine ⟨t, (flush0_6 t).mpr (by omega), ?_⟩
  rw [mem_blk6]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 1024 ≤ (i 1).val ∧ (i 1).val < win0_6.index t (1 : Fin 2) * 1024 + 1024; omega

/-- When the last step of every row block leaves rows 16·(t/8) … of G6 in the staging buffer, the array ends holding G6. -/
theorem final6_of (c : Dev nD) (G6 : S64x1024.Idx → Elt F .f32)
    (h : ∀ t : Fin cfg0.N, t.val % 8 = 7 → ∀ (r : Fin 16) (T : Fin 1024),
      (outsAt0 m c t.val t.isLt).2.1 (ix2 r T)
        = G6 (ix2 ⟨16 * (t.val / 8) + r.val, by have := t.isLt; have hN : cfg0.N = 32 := N_0; omega⟩ T)) :
    (dats m 0 c).arrAt 6 cfg0.N = G6 := by
  have hN : cfg0.N = 32 := N_0
  refine (dats m 0 c).arrAt_eq_of_cover 6 G6 (fun t hf => ?_) (fun i => cover6 i)
  have h7 : t.val % 8 = 7 := (flush0_6 t).mp hf
  have ht : t.val < 32 := lt_of_lt_of_eq t.isLt N_0
  obtain ⟨-, -, -, e0, e1⟩ := idx_facts t
  show (cfg0.win 6).cut (grid0.coords t) ((dats m 0 c).after 6 t) = _
  rw [after0_6]
  funext j
  show (outsAt0 m c t.val t.isLt).2.1 ((cfg0.win 6).xinj (grid0.coords t) j) = G6 (((cfg0.win 6).blk t).view.emb j)
  have hj0 : (j 0).val < 16 := (j 0).isLt
  have hj1 : (j 1).val < 1024 := (j 1).isLt
  have ex : (cfg0.win 6).xinj (grid0.coords t) j = ix2 (⟨(j 0).val, hj0⟩ : Fin 16) (⟨(j 1).val, hj1⟩ : Fin 1024) :=
    funext fun a => by match a with | ⟨0, _⟩ => rfl | ⟨1, _⟩ => rfl
  have eb : ((cfg0.win 6).blk t).view.emb j
      = ix2 (⟨16 * (t.val / 8) + (j 0).val, by omega⟩ : Fin 64) (⟨(j 1).val, hj1⟩ : Fin 1024) := by
    funext a; apply Fin.ext
    match a with
    | ⟨0, _⟩ => show win0_6.index t (0 : Fin 2) * 16 + 1 * (j 0).val = 16 * (t.val / 8) + (j 0).val; omega
    | ⟨1, _⟩ => show win0_6.index t (1 : Fin 2) * 1024 + 1 * (j 1).val = (j 1).val; omega
  exact (congrArg (outsAt0 m c t.val t.isLt).2.1 ex).trans ((h t h7 _ _).trans (congrArg G6 eb.symm))

/-! ## The context array (output window 5) -/

/-- An index of the [64,1,512] array is in point t's block iff each coordinate is in the block's range on its axis. -/
theorem mem_blk5 (t : Fin cfg0.N) (i : S64x1x512.Idx) :
    i ∈ ((cfg0.win 5).blk t).view.set ↔ ∀ a : Fin 3, win0_5.index t a * S16x1x512.size a ≤ (i a).val ∧ (i a).val < win0_5.index t a * S16x1x512.size a + S16x1x512.size a := by
  show i ∈ ((View.whole main_v11_0).slice (win0_5.rect t)).set ↔ _
  rw [View.set_slice_whole, Rect.mem_set_unit]
  exact Iff.rfl

/-- Row i₀ of the [64,1,512] array is written back at the last step of row block i₀ / 16. -/
theorem cover5 (i : S64x1x512.Idx) : ∃ t : Fin cfg0.N, (cfg0.win 5).flush t = true ∧ i ∈ ((cfg0.win 5).blk t).view.set := by
  have hN : cfg0.N = 32 := N_0
  have hi0 : (i 0).val < 64 := (i 0).isLt
  have hi1 : (i 1).val < 1 := (i 1).isLt
  have hi2 : (i 2).val < 512 := (i 2).isLt
  obtain ⟨t, htv⟩ : ∃ t : Fin cfg0.N, t.val = 8 * ((i 0).val / 16) + 7 := ⟨⟨_, by omega⟩, rfl⟩
  obtain ⟨e0, e1, e2, -, -⟩ := idx_facts t
  refine ⟨t, (flush0_5 t).mpr (by omega), ?_⟩
  rw [mem_blk5]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 1 ≤ (i 1).val ∧ (i 1).val < win0_5.index t (1 : Fin 3) * 1 + 1; omega
  | ⟨2, _⟩ => show win0_5.index t (2 : Fin 3) * 512 ≤ (i 2).val ∧ (i 2).val < win0_5.index t (2 : Fin 3) * 512 + 512; omega

/-- When the last step of every row block leaves rows 16·(t/8) … of G5 in the staging buffer, the array ends holding G5. -/
theorem final5_of (c : Dev nD) (G5 : S64x1x512.Idx → Elt F .f32)
    (h : ∀ t : Fin cfg0.N, t.val % 8 = 7 → ∀ (r : Fin 16) (z : Fin 1) (f : Fin 512),
      (outsAt0 m c t.val t.isLt).1 (ix3 r z f)
        = G5 (ix3 ⟨16 * (t.val / 8) + r.val, by have := t.isLt; have hN : cfg0.N = 32 := N_0; omega⟩ z f)) :
    (dats m 0 c).arrAt 5 cfg0.N = G5 := by
  have hN : cfg0.N = 32 := N_0
  refine (dats m 0 c).arrAt_eq_of_cover 5 G5 (fun t hf => ?_) (fun i => cover5 i)
  have h7 : t.val % 8 = 7 := (flush0_5 t).mp hf
  have ht : t.val < 32 := lt_of_lt_of_eq t.isLt N_0
  obtain ⟨e0, e1, e2, -, -⟩ := idx_facts t
  show (cfg0.win 5).cut (grid0.coords t) ((dats m 0 c).after 5 t) = _
  rw [after0_5]
  funext j
  show (outsAt0 m c t.val t.isLt).1 ((cfg0.win 5).xinj (grid0.coords t) j) = G5 (((cfg0.win 5).blk t).view.emb j)
  have hj0 : (j 0).val < 16 := (j 0).isLt
  have hj1 : (j 1).val < 1 := (j 1).isLt
  have hj2 : (j 2).val < 512 := (j 2).isLt
  have ex : (cfg0.win 5).xinj (grid0.coords t) j
      = ix3 (⟨(j 0).val, hj0⟩ : Fin 16) (⟨(j 1).val, hj1⟩ : Fin 1) (⟨(j 2).val, hj2⟩ : Fin 512) :=
    funext fun a => by match a with | ⟨0, _⟩ => rfl | ⟨1, _⟩ => rfl | ⟨2, _⟩ => rfl
  have eb : ((cfg0.win 5).blk t).view.emb j
      = ix3 (⟨16 * (t.val / 8) + (j 0).val, by omega⟩ : Fin 64) (⟨(j 1).val, hj1⟩ : Fin 1) (⟨(j 2).val, hj2⟩ : Fin 512) := by
    funext a; apply Fin.ext
    match a with
    | ⟨0, _⟩ => show win0_5.index t (0 : Fin 3) * 16 + 1 * (j 0).val = 16 * (t.val / 8) + (j 0).val; omega
    | ⟨1, _⟩ => show win0_5.index t (1 : Fin 3) * 1 + 1 * (j 1).val = (j 1).val; omega
    | ⟨2, _⟩ => show win0_5.index t (2 : Fin 3) * 512 + 1 * (j 2).val = (j 2).val; omega
  exact (congrArg (outsAt0 m c t.val t.isLt).1 ex).trans ((h t h7 _ _ _).trans (congrArg G5 eb.symm))

/-! ## The line after the region, and the run -/

/-- The first result: the line after the region squeezes the context array. -/
theorem tail_v12 (c : Dev nD) (G5 : S64x1x512.Idx → Elt F .f32) (h5 : (dats m 0 c).arrAt 5 cfg0.N = G5) :
    Pipeline.afterTail₀ cfgs (dats m) 0 (V0 m) [hostOps1] c main_v12
      = shapeCast S64x512 G5 shapeCasts_S64x1x512_S64x512 := by
  unfold Pipeline.afterTail₀
  show StableHlo.after hostOps1 _ (Proc.devRef .tc main_v12) = _
  after_results
  exact congrArg (fun X => shapeCast S64x512 X shapeCasts_S64x1x512_S64x512)
    ((Pipeline.withArrays_arr spec0 launch0.win.arr_inj c _ _ 5).trans h5)

/-- THE RUN, READ: the first result is the squeeze of the context array, the second the weights' array, and the eight
    arguments end as they began. -/
theorem run_of_finals (G5 : (c : Dev nD) → S64x1x512.Idx → Elt F .f32) (G6 : (c : Dev nD) → S64x1024.Idx → Elt F .f32)
    (h5 : ∀ c, (dats m 0 c).arrAt 5 cfg0.N = G5 c) (h6 : ∀ c, (dats m 0 c).arrAt 6 cfg0.N = G6 c) :
    θ_run defs (onTc (τ := τ) (main (F := F))) ⟨m, fun _ => 0, ρ⟩ (fun r => ∀ c : Dev nD,
        r.2.mem ((c.tc : Thread nD τ).loc main_v12) = shapeCast S64x512 (G5 c) shapeCasts_S64x1x512_S64x512
      ∧ r.2.mem ((c.tc : Thread nD τ).loc main_v11_1) = G6 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v12 (Pipeline.mem_restRefs_of main_v12 (by decide) (by decide))).trans (tail_v12 m c (G5 c) (h5 c)),
      ((h c).1 6).trans (h6 c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Attention.KernelTail

end
-- ==== Proof.KernelValue.lean ====
/-
  The value of the kernel program: after its run the two result arrays hold the specification's context vectors and
  attention weights of the argument arrays, and the arguments are unchanged.

  Every float argument entry is a real number (the precondition), so at a row block's last grid point the two output
  blocks are the specification's values for the block's 16 batch rows. Those four points write the blocks back, the
  four row blocks cover the 64 batch rows, and the program's last host line only drops the unit axis of the context
  array.
-/
import proofs.«177093_j35699768164501_2_alg».proof.Proof.Spec
import proofs.«177093_j35699768164501_2_alg».proof.Proof.Finite
import proofs.«177093_j35699768164501_2_alg».proof.Proof.KernelInvariant
import proofs.«177093_j35699768164501_2_alg».proof.Proof.KernelTail
import proofs.«177093_j35699768164501_2_alg».proof.Proof.Gen.KernelIdeal.Frame

noncomputable section

namespace Cert.Attention.KernelValue

open Cert.KernelIdeal Cert.KernelIdeal.Gen Idealize.ShloMosaic Idealize.ShloMosaic.TcCoe Idealize.SL.Sem
open Idealize.ShloMosaic.ValueIdx
open Cert.Attention Cert.Attention.Finite

/-- The kernel's run, read: the context array and the attention array at the specification's, the arguments kept. -/
theorem run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v12) = context (argsOf m c)
      ∧ r.2.mem ((c.tc : Thread nD τ).loc main_v11_1) = attn (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hA : ∀ c, (argsOf m c).Finite := fun c => finite_of_pre m hpre c
  have h5 : ∀ c, (dats m 0 c).arrAt 5 cfg0.N
      = (fun i : S64x1x512.Idx => context (argsOf m c) (ix2 (i 0) (i 2))) := fun c =>
    Cert.Attention.KernelTail.final5_of m c _
      (fun t h7 r z f => Cert.Attention.Invariant.out_ctx m c (hA c) t h7 r z f)
  have h6 : ∀ c, (dats m 0 c).arrAt 6 cfg0.N = attn (argsOf m c) := fun c =>
    Cert.Attention.KernelTail.final6_of m c _
      (fun t h7 r T => Cert.Attention.Invariant.out_attn m c (hA c) t h7 r T)
  refine (θ_run defs _ _).mono (fun r h c => ⟨(h c).1.trans ?_, (h c).2⟩)
    (Cert.Attention.KernelTail.run_of_finals m ρ _ _ h5 h6)
  funext i
  obtain ⟨b, f, rfl⟩ : ∃ (b : Fin 64) (f : Fin 512), i = ix2 b f := ⟨i 0, i 1, eq_ix2 i⟩
  exact Cert.Attention.KernelTail.squeeze_apply _ b f

end Cert.Attention.KernelValue

end
-- ==== Proof.Assembly.lean ====
/-
  The five claims of the certificate, assembled.

  The three programs run and keep their arguments (the frames). The idealized kernel is the kernel's own text read over
  the extended reals (nothing was rewritten). And from memories that agree on the eight arguments, the idealized kernel
  and the idealized reference end with equal results: both are the context vectors and the attention weights of the
  specification at those arguments, the reference because it is additive attention stage by stage, the kernel by its
  value theorem; the arguments are real numbers by the precondition.
-/
import proofs.«177093_j35699768164501_2_alg».proof.Defs
import proofs.«177093_j35699768164501_2_alg».proof.Proof.Gen.Kernel.Frame
import proofs.«177093_j35699768164501_2_alg».proof.Proof.Gen.KernelIdeal.Frame
import proofs.«177093_j35699768164501_2_alg».proof.Proof.Gen.ReferenceIdeal.Read
import proofs.«177093_j35699768164501_2_alg».proof.Proof.Gen.Pre_finite_inputs
import proofs.«177093_j35699768164501_2_alg».proof.Proof.Spec
import proofs.«177093_j35699768164501_2_alg».proof.Proof.Finite
import proofs.«177093_j35699768164501_2_alg».proof.Proof.Reference
import proofs.«177093_j35699768164501_2_alg».proof.Proof.KernelValue

noncomputable section

namespace Cert.Proof.Assembly

open Idealize.ShloMosaic Idealize.SL.Sem
open Cert.Attention Cert.Attention.Finite Cert.Attention.Reference

/-- The kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference program runs and keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the kernel was rewritten for the idealized program. -/
theorem preserves : Cert.preserves_Kernel_KernelIdeal := trivial

/-- From memories agreeing on the arguments, both idealized programs end with the specification's context vectors and
    attention weights of those arguments, and keep the arguments. -/
theorem algebraic : Cert.algebraic_KernelIdeal_ReferenceIdeal := by
  intro m ρ m' ρ' hpre hagree
  refine ⟨fun c => context (argsOf m c), fun c => attn (argsOf m c), Cert.Attention.KernelValue.run m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v29_eq, h0, h1, h2, h3, h4, h5, h6, h7]
    exact ref_context (argsOf m c) (finite_of_pre m hpre c)
  · obtain ⟨h0, h1, h2, h3, h4, h5, h6, h7⟩ := hagree c
    rw [Cert.ReferenceIdeal.Read.val_main_v30_eq, h0, h1, h2, h3, h4, h5, h6, h7]
    exact ref_attn (argsOf m c) (finite_of_pre m hpre c)

end Cert.Proof.Assembly

end
-- ==== Proof.lean ====
/-
  The certificate: an additive-attention kernel against its reference, over the extended reals.

  For 64 batch rows, 1024 time steps and 512 features both programs compute, from the encoder features, the decoder
  state, two projection matrices with their biases and a scoring vector with its bias, the logits
      L(b,T) = Σ_u tanh( Σ_f enc(b,T,f)·W1(f,u) + b1(u) + Σ_d dec(b,d)·W2(d,u) + b2(u) ) · V(u) + bV,
  the softmax weights of L(b,·) over the time steps, and the weighted sum of the encoder rows. The reference does this
  with whole-array operations. The kernel streams over the time axis in eight blocks of 128 steps per block of 16 batch
  rows, keeping a running maximum (started at a very negative finite number), a running normaliser, a running weighted
  sum and a table of unnormalised weights, rescaling them whenever the maximum grows, and divides by the normaliser at
  the end. When every argument entry is a real number — the precondition — every logit is real, the streamed
  quantities are those of a softmax relative to some real level, and softmax weights do not depend on the level
  (exp(l − μ) / Σ exp(l' − μ) = exp l / Σ exp l'), so both programs end with the same two arrays (Proof/Spec.lean):
  Proof/KernelValue.lean reads the kernel's run, Proof/Reference.lean the reference's, Proof/Assembly.lean puts the
  five conjuncts together. The kernel's idealization rewrote nothing, so that conjunct is trivial; the three frames are
  the programs' runs with the results dropped.
-/
import proofs.«177093_j35699768164501_2_alg».proof.Defs
import proofs.«177093_j35699768164501_2_alg».proof.Proof.Gen.Kernel
import proofs.«177093_j35699768164501_2_alg».proof.Proof.Gen.Kernel.Skeleton
import proofs.«177093_j35699768164501_2_alg».proof.Proof.Gen.Kernel.Launch
import proofs.«177093_j35699768164501_2_alg».proof.Proof.Gen.Kernel.Points
import proofs.«177093_j35699768164501_2_alg».proof.Proof.Gen.Kernel.Frame
import proofs.«177093_j35699768164501_2_alg».proof.Proof.Gen.KernelIdeal
import proofs.«177093_j35699768164501_2_alg».proof.Proof.Gen.KernelIdeal.Skeleton
import proofs.«177093_j35699768164501_2_alg».proof.Proof.Gen.KernelIdeal.Launch
import proofs.«177093_j35699768164501_2_alg».proof.Proof.Gen.KernelIdeal.Points
import proofs.«177093_j35699768164501_2_alg».proof.Proof.Gen.KernelIdeal.Frame
import proofs.«177093_j35699768164501_2_alg».proof.Proof.Gen.ReferenceIdeal
import proofs.«177093_j35699768164501_2_alg».proof.Proof.Gen.Pre_finite_inputs
import proofs.«177093_j35699768164501_2_alg».proof.Proof.Gen.ReferenceIdeal.Run
import proofs.«177093_j35699768164501_2_alg».proof.Proof.Gen.ReferenceIdeal.Read
import proofs.«177093_j35699768164501_2_alg».proof.Proof.Assembly
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Assembly.frame_k, Assembly.frame_ki, Assembly.frame_ri, Assembly.preserves, Assembly.algebraic⟩

end Cert.Proof

end
